-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x320000 : Shape := ⟨2, ![2, 320000]⟩
abbrev S320000x64 : Shape := ⟨2, ![320000, 64]⟩
abbrev S64x256 : Shape := ⟨2, ![64, 256]⟩
abbrev S256x256 : Shape := ⟨2, ![256, 256]⟩
abbrev S256 : Shape := ⟨1, ![256]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S320000x64 : S_.BroadcastsInDim S320000x64 (![] : Fin 0 → Fin S320000x64.rank)
  reducesTo_S320000x64_S_d0_1 : S320000x64.ReducesTo [0, 1] S_
  bcast_S_S64x256 : S_.BroadcastsInDim S64x256 (![] : Fin 0 → Fin S64x256.rank)
  reducesTo_S64x256_S_d0_1 : S64x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256 .f32) (main_arg9 : FVec F S256x256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256 .f32) (main_arg8 : FVec F S256 .f32) (main_arg9 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S20000x256 .f32) (main_arg1 : IVec S2x320000 32) (main_arg2 : FVec F S320000x64 .f32) (main_arg3 : FVec F S64x256 .f32) (main_arg4 : FVec F S256x256 .f32) (main_arg5 : FVec F S256 .f32) (main_arg6 : FVec F S256x256 .f32) (main_arg7 : FVec F S256 .f32) (main_arg8 : FVec F S256 .f32) (main_arg9 : FVec F S256x256 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S320000x64 .f32 := Host.absf main_arg2
  let main_cst_0 : FVec F S_ .f32 := constant S_ .f32 0x7F800000#32
  let main_v5 : FVec F S320000x64 .f32 := broadcastInDim S320000x64 ![] bcast_S_S320000x64 main_cst_0
  let main_v6 : IVec S320000x64 1 := cmpf .olt main_v4 main_v5
  let main_c_1 : IVec S_ 1 := constantI S_ 1 1#1
  let main_v7 : IVec S_ 1 := (fun x v => Host.reduce IntOp.andi x v reducesTo_S320000x64_S_d0_1 h_S_) main_v6 main_c_1
  let main_v8 : IVec S_ 1 := andi main_v3 main_v7
  let main_v9 : FVec F S64x256 .f32 := Host.absf main_arg3
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_v13 main_v16
-- ==== Kernel.lean ====
abbrev S20000x256 : Shape := ⟨2, ![20000, 256]⟩
abbrev S2x320000 : Shape := ⟨2, ![2, 320000]⟩
abbrev S320000x64 : Shape := ⟨2, ![320000, 64]⟩
abbrev S64x256 : Shape := ⟨2, ![64, 256]⟩
abbrev S256x256 : Shape := ⟨2, ![256, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S3200x64 : Shape := ⟨2, ![3200, 64]⟩
abbrev S3200x256 : Shape := ⟨2, ![3200, 256]⟩
abbrev S1x256 : Shape := ⟨2, ![1, 256]⟩
abbrev S2000x256 : Shape := ⟨2, ![2000, 256]⟩

abbrev nBuf : Space → Nat
  | .hbm => 43
  | .vmem => 29
  | .smem => 0
  | _ => 0

abbrev bufTy : (tb : Table) → Fin (tcTables nBuf tb) → BufTy
  | .hbm, ⟨0, _⟩ => ⟨S20000x256, .f32⟩
  | .hbm, ⟨1, _⟩ => ⟨S2x320000, .i32⟩
  | .hbm, ⟨2, _⟩ => ⟨S320000x64, .f32⟩
  | .hbm, ⟨3, _⟩ => ⟨S64x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S1x320000, .i32⟩
  | .hbm, ⟨11, _⟩ => ⟨S320000, .i32⟩
  | .hbm, ⟨12, _⟩ => ⟨S1x320000, .i32⟩
  | .hbm, ⟨13, _⟩ => ⟨S320000, .i32⟩
  | .hbm, ⟨14, _⟩ => ⟨S_, .i32⟩
  | .hbm, ⟨15, _⟩ => ⟨S320000, .i32⟩
  | .hbm, ⟨16, _⟩ => ⟨S320000, .i1⟩
  | .hbm, ⟨17, _⟩ => ⟨S_, .i32⟩
  | .hbm, ⟨18, _⟩ => ⟨S320000, .i32⟩
  | .hbm, ⟨19, _⟩ => ⟨S320000, .i32⟩
  | .hbm, ⟨20, _⟩ => ⟨S320000, .i32⟩
  | .hbm, ⟨21, _⟩ => ⟨S320000x1, .i32⟩
  | .hbm, ⟨22, _⟩ => ⟨S320000x256, .f32⟩
  | .hbm, ⟨23, _⟩ => ⟨S320000x256, .f32⟩
  | .hbm, ⟨24, _⟩ => ⟨S_, .f32⟩
  | .hbm, ⟨25, _⟩ => ⟨S20000x256, .f32⟩
  | .hbm, ⟨26, _⟩ => ⟨S320000x1, .i32⟩
  | .hbm, ⟨27, _⟩ => ⟨S20000x256, .f32⟩
  | .hbm, ⟨28, _⟩ => ⟨S1x256, .f32⟩
  | .hbm, ⟨29, _⟩ => ⟨S20000x256, .f32⟩
  | .hbm, ⟨30, _⟩ => ⟨S1x256, .f32⟩
  | .hbm, ⟨31, _⟩ => ⟨S1x256, .f32⟩
  | .hbm, ⟨32, _⟩ => ⟨S_, .f32⟩
  | .hbm, ⟨33, _⟩ => ⟨S1x256, .f32⟩
  | .hbm, ⟨34, _⟩ => ⟨S1x256, .f32⟩
  | .hbm, ⟨35, _⟩ => ⟨S_, .f32⟩
  | .hbm, ⟨36, _⟩ => ⟨S1x256, .f32⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S20000x256, .f32⟩
  | .local _ .vmem, ⟨0, _⟩ => ⟨S3200x64, .f32⟩
  | .local _ .vmem, ⟨1, _⟩ => ⟨S3200x64, .f32⟩
  | .local _ .vmem, ⟨2, _⟩ => ⟨S3200x256, .f32⟩
  | .local _ .vmem, ⟨3, _⟩ => ⟨S3200x256, .f32⟩
  | .local _ .vmem, ⟨4, _⟩ => ⟨S64x256, .f32⟩
  | .local _ .vmem, ⟨5, _⟩ => ⟨S3200x256, .f32⟩
  | .local _ .vmem, ⟨6, _⟩ => ⟨S3200x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S256x256, .f32⟩
  | .local _ .vmem, ⟨12, _⟩ => ⟨S1x256, .f32⟩
  | .local _ .vmem, ⟨13, _⟩ => ⟨S256x256, .f32⟩
  | .local _ .vmem, ⟨14, _⟩ => ⟨S2000x256, .f32⟩
  | .local _ .vmem, ⟨15, _⟩ => ⟨S2000x256, .f32⟩
  | .local _ .vmem, ⟨16, _⟩ => ⟨S1x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S256x256, .f32⟩
  | .local _ .vmem, ⟨27, _⟩ => ⟨S2000x256, .f32⟩
  | .local _ .vmem, ⟨28, _⟩ => ⟨S2000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev main_v16_2 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg7_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem7_0 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3200x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  inb_S3200x64_S3200x64_0_0 : ∀ a, (![0, 0] : Fin 2 → Nat) a + S3200x64.size a ≤ S3200x64.size a
  h_S3200x64 : 0 < S3200x64.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S3200x256_S3200x256_0_0 : ∀ a, (![0, 0] : Fin 2 → Nat) a + S3200x256.size a ≤ S3200x256.size a
  h_S3200x256 : 0 < S3200x256.numel
  shapeCasts_S3200x256_S3200x256 : S3200x256.ShapeCasts S3200x256
  bcast_S_S20000x256 : S_.BroadcastsInDim S20000x256 (![] : Fin 0 → Fin S20000x256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S1x256_S1x256 : S1x256.ShapeCasts S1x256
  broadcasts_S1x256_S2000x256 : S1x256.Broadcasts S2000x256
  reduces_S2000x256_S256 : S2000x256.Reduces [0] S256
  bcast_S_S1x256 : S_.BroadcastsInDim S1x256 (![] : Fin 0 → Fin S1x256.rank)
  gather_S20000x256_S320000x1_S320000x256_1_0_n_n_0_1_1256_wf : GatherDims.WF S20000x256 S320000x1 S320000x256 [1] [0] [] [0] [] 1 ![1, 256]
  dot_S3200x64_S64x256_S3200x256_1_0_0_1_n_n_wf : DotDims.WF S3200x64 S64x256 S3200x256 [1] [0] [0] [1] [] []
  scatter_S20000x256_S320000x1_S320000x256_1_0_0_1_wf : ScatterDims.WF S20000x256 S320000x1 S320000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x64.size a ≤ S320000x64.size a
  hwx0_0 : ∀ i : grid0.Coords, EltTy.bits .f32 = 32 ∨ (Rect.block (s := S320000x64) S3200x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x256.size a ≤ S320000x256.size a
  hwx0_1 : ∀ i : grid0.Coords, EltTy.bits .f32 = 32 ∨ (Rect.block (s := S320000x256) S3200x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3200x256.size a ≤ S320000x256.size a
  hwx0_3 : ∀ i : grid0.Coords, EltTy.bits .f32 = 32 ∨ (Rect.block (s := S320000x256) S3200x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S20000x256.size a
  hwx1_1 : ∀ i : grid1.Coords, EltTy.bits .f32 = 32 ∨ (Rect.block (s := S20000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S20000x256.size a
  hwx1_5 : ∀ i : grid1.Coords, EltTy.bits .f32 = 32 ∨ (Rect.block (s := S20000x256) S2000x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S20000x256.size a
  hwx2_1 : ∀ i : grid2.Coords, EltTy.bits .f32 = 32 ∨ (Rect.block (s := S20000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x256.size a ≤ S256x256.size a
  hwx2_6 : ∀ i : grid2.Coords, EltTy.bits .f32 = 32 ∨ (Rect.block (s := S256x256) S256x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x256.size a ≤ S20000x256.size a
  hwx2_7 : ∀ i : grid2.Coords, EltTy.bits .f32 = 32 ∨ (Rect.block (s := S20000x256) S2000x256.size (cc2_transform_7 i) (hinb2_7 i)).WholeWords (EltTy.packing .f32)

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def dot_S3200x64_S64x256_S3200x256_1_0_0_1_n_n : DotDims S3200x64 S64x256 S3200x256 where
  lhsContracting := [1]
  rhsContracting := [0]
  lhsNonContracting := [0]
  rhsNonContracting := [1]
  lhsBatch := []
  rhsBatch := []
  wf := dot_S3200x64_S64x256_S3200x256_1_0_0_1_n_n_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg2) S3200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S3200x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S3200x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16_0) S2000x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v16_1) S1x256.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16_2) S1x256.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v16_0) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v23) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v24) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg9) S256x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v25) S2000x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S20000x256 : Shape := ⟨2, ![20000, 256]⟩
abbrev S2x320000 : Shape := ⟨2, ![2, 320000]⟩
abbrev S320000x64 : Shape := ⟨2, ![320000, 64]⟩
abbrev S64x256 : Shape := ⟨2, ![64, 256]⟩
abbrev S256x256 : Shape := ⟨2, ![256, 256]⟩
abbrev S256 : Shape := ⟨1, ![256]⟩
abbrev S1x320000 : Shape := ⟨2, ![1, 320000]⟩
abbrev S320000 : Shape := ⟨1, ![320000]⟩
abbrev S320000x256 : Shape := ⟨2, ![320000, 256]⟩
abbrev S_ : Shape := ⟨0, ![]⟩
abbrev S320000x1 : Shape := ⟨2, ![320000, 1]⟩
abbrev S1x256 : Shape := ⟨2, ![1, 256]⟩

abbrev nBuf : Space → Nat
  | .hbm => 70
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S2x320000, .i32⟩
  | .hbm, ⟨2, _⟩ => ⟨S320000x64, .f32⟩
  | .hbm, ⟨3, _⟩ => ⟨S64x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S1x320000, .i32⟩
  | .hbm, ⟨11, _⟩ => ⟨S320000, .i32⟩
  | .hbm, ⟨12, _⟩ => ⟨S1x320000, .i32⟩
  | .hbm, ⟨13, _⟩ => ⟨S320000, .i32⟩
  | .hbm, ⟨14, _⟩ => ⟨S320000x256, .f32⟩
  | .hbm, ⟨15, _⟩ => ⟨S_, .i32⟩
  | .hbm, ⟨16, _⟩ => ⟨S320000, .i32⟩
  | .hbm, ⟨17, _⟩ => ⟨S320000, .i1⟩
  | .hbm, ⟨18, _⟩ => ⟨S_, .i32⟩
  | .hbm, ⟨19, _⟩ => ⟨S320000, .i32⟩
  | .hbm, ⟨20, _⟩ => ⟨S320000, .i32⟩
  | .hbm, ⟨21, _⟩ => ⟨S320000, .i32⟩
  | .hbm, ⟨22, _⟩ => ⟨S320000x1, .i32⟩
  | .hbm, ⟨23, _⟩ => ⟨S320000x256, .f32⟩
  | .hbm, ⟨24, _⟩ => ⟨S320000x256, .f32⟩
  | .hbm, ⟨25, _⟩ => ⟨S_, .f32⟩
  | .hbm, ⟨26, _⟩ => ⟨S20000x256, .f32⟩
  | .hbm, ⟨27, _⟩ => ⟨S320000x1, .i32⟩
  | .hbm, ⟨28, _⟩ => ⟨S20000x256, .f32⟩
  | .hbm, ⟨29, _⟩ => ⟨S20000x256, .f32⟩
  | .hbm, ⟨30, _⟩ => ⟨S1x256, .f32⟩
  | .hbm, ⟨31, _⟩ => ⟨S20000x256, .f32⟩
  | .hbm, ⟨32, _⟩ => ⟨S20000x256, .f32⟩
  | .hbm, ⟨33, _⟩ => ⟨S20000x256, .f32⟩
  | .hbm, ⟨34, _⟩ => ⟨S20000x256, .f32⟩
  | .hbm, ⟨35, _⟩ => ⟨S_, .f32⟩
  | .hbm, ⟨36, _⟩ => ⟨S20000x256, .f32⟩
  | .hbm, ⟨37, _⟩ => ⟨S20000x256, .f32⟩
  | .hbm, ⟨38, _⟩ => ⟨S_, .f32⟩
  | .hbm, ⟨39, _⟩ => ⟨S256, .f32⟩
  | .hbm, ⟨40, _⟩ => ⟨S_, .f32⟩
  | .hbm, ⟨41, _⟩ => ⟨S256, .f32⟩
  | .hbm, ⟨42, _⟩ => ⟨S256, .f32⟩
  | .hbm, ⟨43, _⟩ => ⟨S1x256, .f32⟩
  | .hbm, ⟨44, _⟩ => ⟨S20000x256, .f32⟩
  | .hbm, ⟨45, _⟩ => ⟨S20000x256, .f32⟩
  | .hbm, ⟨46, _⟩ => ⟨S20000x256, .f32⟩
  | .hbm, ⟨47, _⟩ => ⟨S_, .f32⟩
  | .hbm, ⟨48, _⟩ => ⟨S256, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S1x256, .f32⟩
  | .hbm, ⟨53, _⟩ => ⟨S20000x256, .f32⟩
  | .hbm, ⟨54, _⟩ => ⟨S20000x256, .f32⟩
  | .hbm, ⟨55, _⟩ => ⟨S_, .f32⟩
  | .hbm, ⟨56, _⟩ => ⟨S256, .f32⟩
  | .hbm, ⟨57, _⟩ => ⟨S256, .f32⟩
  | .hbm, ⟨58, _⟩ => ⟨S256, .f32⟩
  | .hbm, ⟨59, _⟩ => ⟨S1x256, .f32⟩
  | .hbm, ⟨60, _⟩ => ⟨S20000x256, .f32⟩
  | .hbm, ⟨61, _⟩ => ⟨S20000x256, .f32⟩
  | .hbm, ⟨62, _⟩ => ⟨S1x256, .f32⟩
  | .hbm, ⟨63, _⟩ => ⟨S20000x256, .f32⟩
  | .hbm, ⟨64, _⟩ => ⟨S20000x256, .f32⟩
  | .hbm, ⟨65, _⟩ => ⟨S1x256, .f32⟩
  | .hbm, ⟨66, _⟩ => ⟨S20000x256, .f32⟩
  | .hbm, ⟨67, _⟩ => ⟨S20000x256, .f32⟩
  | .hbm, ⟨68, _⟩ => ⟨S20000x256, .f32⟩
  | .hbm, ⟨69, _⟩ => ⟨S20000x256, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_cst : Ref sig .tc := ⟨.hbm, 35, rfl⟩
abbrev main_call0_v0 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S20000x256 : S_.BroadcastsInDim S20000x256 (![] : Fin 0 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  reducesTo_S20000x256_S256_d0 : S20000x256.ReducesTo [0] S256
  h_S_ : 0 < S_.numel
  bcast_S_S256 : S_.BroadcastsInDim S256 (![] : Fin 0 → Fin S256.rank)
  dot_S320000x64_S64x256_S320000x256_1_0_0_1_n_n_wf : DotDims.WF S320000x64 S64x256 S320000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S20000x256_S256x256_S20000x256_1_0_0_1_n_n_wf : DotDims.WF S20000x256 S256x256 S20000x256 [1] [0] [0] [1] [] []

variable [Facts₀]

def dot_S320000x64_S64x256_S320000x256_1_0_0_1_n_n : DotDims S320000x64 S64x256 S320000x256 where
  lhsContracting := [1]
  rhsContracting := [0]
  lhsNonContracting := [0]
  rhsNonContracting := [1]
  lhsBatch := []
  rhsBatch := []
  wf := dot_S320000x64_S64x256_S320000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf

class Facts : Prop extends Facts₀ where

variable [Facts]
-- ==== Proof.KernelRun.lean ====
/-
  The idealized kernel's run with its result named.

  The program is three kernel regions among stretches of host operations. Its run is the chain of those six segments
  from the launch memory; the buffer contents at the boundaries are a fold through the program (`Gen.W0` … `Gen.W6`:
  a host stretch applies its operations, a region leaves each of its arrays at what its write-backs leave). Every
  execution terminates, nothing faults, every unscoped buffer ends at the last boundary's contents — so the result
  buffer ends at `Gen.W6` there, and each argument as launched.
-/
import proofs.«169426_j11020886081778_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, with the result buffer at the last boundary's contents and
    the ten arguments as launched. -/
theorem run_value : θ_run defs (onTc (τ := τ) (main (F := F))) ⟨m, fun _ => 0, ρ⟩ (fun r => ∀ c : Dev nD,
      r.2.mem ((c.tc : Thread nD τ).loc main_v25) = W6 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v25 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.Run

end
-- ==== Proof.Spec.lean ====
/-
  The graph layer as functions of arrays, index by index, on the extended reals.

  For an edge `e` and a channel `c` the message is the gathered source feature times the projected edge
  attribute, `xg[e,c] · Σ_k ea[e,k] · we[k,c]`. The messages are added up per destination node (that sum is a stage
  both programs share and is kept as an array parameter `agg` here). A node's hidden value is
  `max (Σ_k agg[r,k]·wrel[k,c] + b[c] + Σ_k x[r,k]·wroot[k,c]) 0`. Over the 20000 nodes each channel has a mean
  `μ[c] = (Σ_r h[r,c]) / 20000` and a variance, which the two programs write differently: as the mean of the squared
  deviations, `(Σ_r (h[r,c] − μ[c])²) / 20000`, or from the second moment, `(Σ_r h[r,c]²) / 20000 − μ[c]²`. The result is
  `(h[r,c] − μ[c]) · rsqrt (var[c] + ε) · γ[c] + β[c] + Σ_k x[r,k]·wres[k,c]`.
-/
import Idealize.ShloMosaic.PureOps.Ideal
import Idealize.ShloMosaic.PureOps.Ideal.Laws
import Idealize.ShloMosaic.Lib.ValueIdx

noncomputable section

open scoped BigOperators

namespace Cert.GraphLayer

open Idealize.ShloMosaic Idealize.ShloMosaic.ValueIdx

/-- node features, hidden values, results: 20000 nodes by 256 channels -/
abbrev SNode : Shape := ⟨2, ![20000, 256]⟩
/-- per-edge features: 320000 edges by 256 channels -/
abbrev SEdge : Shape := ⟨2, ![320000, 256]⟩
/-- edge attributes: 320000 edges by 64 -/
abbrev SAttr : Shape := ⟨2, ![320000, 64]⟩
/-- the edge projection's weights, 64 by 256 -/
abbrev SProj : Shape := ⟨2, ![64, 256]⟩
/-- a square weight matrix, 256 by 256 -/
abbrev SSq : Shape := ⟨2, ![256, 256]⟩
/-- one value per channel, as a row -/
abbrev SRow : Shape := ⟨2, ![1, 256]⟩
/-- one value per channel -/
abbrev SChan : Shape := ⟨1, ![256]⟩

/-- the small constant added to the variance (the f32 nearest 1e-5, the same word in both programs) -/
def eps : EReal := Ideal.ofBits .f32 0x3727C5AC#32
/-- the number of nodes as both programs write it (the f32 20000.0) -/
def count : EReal := Ideal.ofBits .f32 0x469C4000#32

/-- the projected edge attribute -/
def proj (ea : SAttr.Idx → EReal) (we : SProj.Idx → EReal) (e : Fin 320000) (c : Fin 256) : EReal :=
  ∑ k : Fin 64, ea (ix2 e k) * we (ix2 k c)

/-- the message along an edge -/
def message (xg : SEdge.Idx → EReal) (ea : SAttr.Idx → EReal) (we : SProj.Idx → EReal) (e : Fin 320000) (c : Fin 256) : EReal :=
  xg (ix2 e c) * proj ea we e c

/-- the messages as an array -/
def messageArr (xg : SEdge.Idx → EReal) (ea : SAttr.Idx → EReal) (we : SProj.Idx → EReal) : SEdge.Idx → EReal :=
  fun i => message xg ea we (i 0) (i 1)

theorem messageArr_ix2 (xg : SEdge.Idx → EReal) (ea : SAttr.Idx → EReal) (we : SProj.Idx → EReal) (e : Fin 320000) (c : Fin 256) :
    messageArr xg ea we (ix2 e c) = message xg ea we e c := rfl

/-- a node array times a square matrix -/
def lin (a : SNode.Idx → EReal) (w : SSq.Idx → EReal) (r : Fin 20000) (c : Fin 256) : EReal :=
  ∑ k : Fin 256, a (ix2 r k) * w (ix2 k c)

/-- a node's hidden value -/
def hidden (agg x : SNode.Idx → EReal) (wrel : SSq.Idx → EReal) (b : SChan.Idx → EReal) (wroot : SSq.Idx → EReal)
    (r : Fin 20000) (c : Fin 256) : EReal :=
  max (lin agg wrel r c + b (ix1 c) + lin x wroot r c) 0

/-- the hidden values as an array -/
def hiddenArr (agg x : SNode.Idx → EReal) (wrel : SSq.Idx → EReal) (b : SChan.Idx → EReal) (wroot : SSq.Idx → EReal) :
    SNode.Idx → EReal :=
  fun i => hidden agg x wrel b wroot (i 0) (i 1)

theorem hiddenArr_ix2 (agg x : SNode.Idx → EReal) (wrel : SSq.Idx → EReal) (b : SChan.Idx → EReal) (wroot : SSq.Idx → EReal)
    (r : Fin 20000) (c : Fin 256) : hiddenArr agg x wrel b wroot (ix2 r c) = hidden agg x wrel b wroot r c := rfl

/-- a channel's sum over the nodes -/
def colSum (h : SNode.Idx → EReal) (c : Fin 256) : EReal := ∑ r : Fin 20000, h (ix2 r c)

/-- a channel's sum of squares over the nodes -/
def colSumSq (h : SNode.Idx → EReal) (c : Fin 256) : EReal := ∑ r : Fin 20000, h (ix2 r c) * h (ix2 r c)

/-- a channel's mean -/
def mean (h : SNode.Idx → EReal) (c : Fin 256) : EReal := Ideal.div (colSum h c) count

/-- a channel's variance as the mean of the squared deviations -/
def varCentered (h : SNode.Idx → EReal) (c : Fin 256) : EReal :=
  Ideal.div (∑ r : Fin 20000, (h (ix2 r c) - mean h c) * (h (ix2 r c) - mean h c)) count

/-- a channel's variance from the second moment -/
def varMoments (h : SNode.Idx → EReal) (c : Fin 256) : EReal :=
  Ideal.div (colSumSq h c) count - mean h c * mean h c

/-- the normalised hidden value plus the residual branch -/
def result (h : SNode.Idx → EReal) (μ v : Fin 256 → EReal) (γ β : SChan.Idx → EReal) (x : SNode.Idx → EReal) (wres : SSq.Idx → EReal)
    (r : Fin 20000) (c : Fin 256) : EReal :=
  (h (ix2 r c) - μ c) * Ideal.rsqrt (v c + eps) * γ (ix1 c) + β (ix1 c) + lin x wres r c

/-- the results as an array -/
def resultArr (h : SNode.Idx → EReal) (μ v : Fin 256 → EReal) (γ β : SChan.Idx → EReal) (x : SNode.Idx → EReal) (wres : SSq.Idx → EReal) :
    SNode.Idx → EReal :=
  fun i => result h μ v γ β x wres (i 0) (i 1)

theorem resultArr_ix2 (h : SNode.Idx → EReal) (μ v : Fin 256 → EReal) (γ β : SChan.Idx → EReal) (x : SNode.Idx → EReal) (wres : SSq.Idx → EReal)
    (r : Fin 20000) (c : Fin 256) : resultArr h μ v γ β x wres (ix2 r c) = result h μ v γ β x wres r c := rfl

/-- the layer's result from the per-node message sums `agg`, with the variance as the mean of squared deviations -/
def layerCentered (agg x : SNode.Idx → EReal) (wrel : SSq.Idx → EReal) (b : SChan.Idx → EReal) (wroot : SSq.Idx → EReal)
    (γ β : SChan.Idx → EReal) (wres : SSq.Idx → EReal) : SNode.Idx → EReal :=
  resultArr (hiddenArr agg x wrel b wroot) (mean (hiddenArr agg x wrel b wroot)) (varCentered (hiddenArr agg x wrel b wroot)) γ β x wres

/-- the same with the variance from the second moment -/
def layerMoments (agg x : SNode.Idx → EReal) (wrel : SSq.Idx → EReal) (b : SChan.Idx → EReal) (wroot : SSq.Idx → EReal)
    (γ β : SChan.Idx → EReal) (wres : SSq.Idx → EReal) : SNode.Idx → EReal :=
  resultArr (hiddenArr agg x wrel b wroot) (mean (hiddenArr agg x wrel b wroot)) (varMoments (hiddenArr agg x wrel b wroot)) γ β x wres

end Cert.GraphLayer

end
-- ==== Proof.EdgeRegion.lean ====
/-
  The edge region of the graph layer, read as one function of the arrays it finds.

  The region runs over 100 grid points. Point `t` loads rows `3200·t … 3200·t + 3199` of the edge attributes
  (320000 × 64) and of the gathered source features (320000 × 256), and the whole 64 × 256 matrix of the projection's
  weights; it multiplies the attribute rows by the weights (a product accumulated into zero; the change of float
  format before it is the identity on the extended reals) and then, entry by entry, by the source features, and writes
  the 3200 × 256 result back as rows `3200·t … 3200·t + 3199` of the output. So at row `p`, channel `q` of block `t`
  the value is `xg[e,q] · Σ_k ea[e,k] · we[k,q]` with `e = 3200·t + p`: the message along edge `e`. Every edge row `r` lies
  in exactly the block `r / 3200`, so the blocks fill the output array, which therefore ends holding the messages.
-/
import proofs.«169426_j11020886081778_1_alg».proof.Proof.Spec
import proofs.«169426_j11020886081778_1_alg».proof.Proof.Gen.KernelIdeal.Frame
import Idealize.ShloMosaic.Lib.Pipeline.Value
import Idealize.ShloMosaic.Lib.ValueIdx

noncomputable section

open scoped BigOperators

namespace Cert.KernelIdeal.EdgeRegion

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-- The contraction's left operand index at output `(p, q)` and contraction coordinate `k` is `(p, k)`: the row. -/
theorem lhs_row (i : S3200x256.Idx) (c : dot_S3200x64_S64x256_S3200x256_1_0_0_1_n_n.contr.Idx) :
    (dot_S3200x64_S64x256_S3200x256_1_0_0_1_n_n.lhsIdx i c 0).val = (i 0).val := by
  unfold DotDims.lhsIdx
  rw [dif_neg (show ¬(0 : Fin S3200x64.rank) ∈ dot_S3200x64_S64x256_S3200x256_1_0_0_1_n_n.lhsBatch by decide), dif_pos (show (0 : Fin S3200x64.rank) ∈ dot_S3200x64_S64x256_S3200x256_1_0_0_1_n_n.lhsNonContracting by decide)]
  rfl

/-- The right operand index there is `(k, q)`: the column. -/
theorem rhs_col (i : S3200x256.Idx) (c : dot_S3200x64_S64x256_S3200x256_1_0_0_1_n_n.contr.Idx) :
    (dot_S3200x64_S64x256_S3200x256_1_0_0_1_n_n.rhsIdx i c 1).val = (i 1).val := by
  unfold DotDims.rhsIdx
  rw [dif_neg (show ¬(1 : Fin S64x256.rank) ∈ dot_S3200x64_S64x256_S3200x256_1_0_0_1_n_n.rhsBatch by decide), dif_pos (show (1 : Fin S64x256.rank) ∈ dot_S3200x64_S64x256_S3200x256_1_0_0_1_n_n.rhsNonContracting by decide)]
  rfl

/-- The body's value at row `p` and channel `q` of a block: the source feature there times the row of edge attributes
    against the column of the projection's weights (the change of format before the product is the identity on the
    extended reals, and the product is accumulated into zero). -/
theorem pay_apply (x0 : Vec Ideal S3200x64 .f32) (x2 : Vec Ideal S64x256 .f32) (x1 : Vec Ideal S3200x256 .f32)
    (p : Fin 3200) (q : Fin 256) :
    k0_pay1 (F := Ideal) x0 x2 x1 (ix2 p q) = x1 (ix2 p q) * ∑ k : Fin 64, x0 (ix2 p k) * x2 (ix2 k q) := by
  unfold k0_pay1
  rw [mulf_apply, shapeCast_self]
  refine congrArg (x1 (ix2 p q) * ·) ?_
  refine (Ideal.matmul_constant_zero_apply dot_S3200x64_S64x256_S3200x256_1_0_0_1_n_n none _ _ (ix2 p q)).trans ?_
  rw [← Equiv.sum_comp (contrEquiv1 dot_S3200x64_S64x256_S3200x256_1_0_0_1_n_n 64 rfl rfl).symm]
  refine Finset.sum_congr rfl fun k _ => ?_
  have hk := contrEquiv1_symm_val dot_S3200x64_S64x256_S3200x256_1_0_0_1_n_n 64 rfl rfl k
  have el : dot_S3200x64_S64x256_S3200x256_1_0_0_1_n_n.lhsIdx (ix2 p q) ((contrEquiv1 dot_S3200x64_S64x256_S3200x256_1_0_0_1_n_n 64 rfl rfl).symm k) = ix2 p k := funext fun a => Fin.ext (by
    match a with
    | ⟨0, _⟩ => exact lhs_row _ _
    | ⟨1, _⟩ => exact (dot_S3200x64_S64x256_S3200x256_1_0_0_1_n_n.lhsIdx_val_of_single rfl _ _).trans hk)
  have er : dot_S3200x64_S64x256_S3200x256_1_0_0_1_n_n.rhsIdx (ix2 p q) ((contrEquiv1 dot_S3200x64_S64x256_S3200x256_1_0_0_1_n_n 64 rfl rfl).symm k) = ix2 k q := funext fun a => Fin.ext (by
    match a with
    | ⟨0, _⟩ => exact (dot_S3200x64_S64x256_S3200x256_1_0_0_1_n_n.rhsIdx_val_of_single rfl _ _).trans hk
    | ⟨1, _⟩ => exact rhs_col _ _)
  rw [truncf_apply, truncf_apply, el, er]

open Cert.GraphLayer

/-- A block of the result as rows of the whole arrays: when the three loaded blocks are rows `3200·T … 3200·T + 3199` of
    the edge attributes and of the source features, and the whole of the projection's weights, the body's value at
    row `p` of the block is the message of edge `3200·T + p`. -/
theorem block_message (xg : SEdge.Idx → EReal) (ea : SAttr.Idx → EReal) (we : SProj.Idx → EReal)
    (x0 : Vec Ideal S3200x64 .f32) (x1 : Vec Ideal S3200x256 .f32) (x2 : Vec Ideal S64x256 .f32)
    (p : Fin 3200) (q : Fin 256) (e : Fin 320000) (r : Fin 256)
    (h0 : ∀ k : Fin 64, x0 (ix2 p k) = ea (ix2 e k))
    (h1 : x1 (ix2 p q) = xg (ix2 e r))
    (h2 : ∀ k : Fin 64, x2 (ix2 k q) = we (ix2 k r)) :
    k0_pay1 (F := Ideal) x0 x2 x1 (ix2 p q) = message xg ea we e r := by
  rw [pay_apply, h1]
  unfold message proj
  exact congrArg (xg (ix2 e r) * ·) (Finset.sum_congr rfl fun k _ => by rw [h0 k, h2 k])

/-- The same at any index `j` of the block and any index `i` of the array, given the three loaded values there. -/
theorem block_message_at (xg : SEdge.Idx → EReal) (ea : SAttr.Idx → EReal) (we : SProj.Idx → EReal)
    (x0 : Vec Ideal S3200x64 .f32) (x1 : Vec Ideal S3200x256 .f32) (x2 : Vec Ideal S64x256 .f32)
    (j : S3200x256.Idx) (i : SEdge.Idx)
    (h0 : ∀ k : Fin 64, x0 (ix2 (j 0) k) = ea (ix2 (i 0) k))
    (h1 : x1 j = xg i)
    (h2 : ∀ k : Fin 64, x2 (ix2 k (j 1)) = we (ix2 k (i 1))) :
    k0_pay1 (F := Ideal) x0 x2 x1 j = messageArr xg ea we i := by
  obtain ⟨p, q, rfl⟩ : ∃ (p : Fin 3200) (q : Fin 256), j = ix2 p q := ⟨j 0, j 1, eq_ix2 j⟩
  obtain ⟨e, r, rfl⟩ : ∃ (e : Fin 320000) (r : Fin 256), i = ix2 e r := ⟨i 0, i 1, eq_ix2 i⟩
  exact block_message xg ea we x0 x1 x2 p q e r h0 h1 h2

variable (V : (c : Dev nD) → (b : Ref sig .tc) → Buf (Elt Ideal) ((c : Thread nD τ).loc b))

/-- The windows' index maps over the 100 points: the three row-blocked windows sit at block `(t, 0)`, the weights' window
    at `(0, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the messages of the arrays the region finds. -/
theorem flushed_eq (c : Dev nD) (t : Fin cfg0.N) :
    (dat0 (F := Ideal) V c).flushed 3 t
      = ((cfg0.win 3).blk t).view.read (Elt Ideal) (messageArr (V c main_v10) (V c main_arg2) (V c main_arg3)) := by
  show (cfg0.win 3).cut (grid0.coords t) ((dat0 V c).after 3 t) = _
  rw [after0_3]
  unfold out0_3
  rw [View.canon_unit_zero hz]
  simp only [View.ld_unit_zero (S := S3200x64) hz, View.ld_unit_zero (S := S64x256) hz, View.ld_unit_zero (S := S3200x256) hz]
  obtain ⟨e00, e01, e10, e11, e20, e21, e30, e31⟩ := idx_facts t
  funext j
  show k0_pay1 (F := Ideal) (iblk0 V c 0 t) (iblk0 V c 2 t) (iblk0 V c 1 t) j
    = messageArr (V c main_v10) (V c main_arg2) (V c main_arg3) (((cfg0.win 3).blk t).view.emb j)
  refine block_message_at _ _ _ _ _ _ j _ (fun k => ?_) ?_ (fun k => ?_)
  · show V c main_arg2 (((cfg0.win 0).blk t).view.emb (ix2 (j 0) k))
      = V c main_arg2 (ix2 ((((cfg0.win 3).blk t).view.emb j) 0) k)
    refine congrArg (V c main_arg2) (funext fun a => Fin.ext ?_)
    match a with
    | ⟨0, _⟩ => show win0_0.index t (0 : Fin 2) * 3200 + 1 * (j 0).val = win0_3.index t (0 : Fin 2) * 3200 + 1 * (j 0).val; rw [e00, e30]
    | ⟨1, _⟩ => show win0_0.index t (1 : Fin 2) * 64 + 1 * k.val = k.val; rw [e01]; omega
  · show V c main_v10 (((cfg0.win 1).blk t).view.emb j) = V c main_v10 (((cfg0.win 3).blk t).view.emb j)
    refine congrArg (V c main_v10) (funext fun a => Fin.ext ?_)
    match a with
    | ⟨0, _⟩ => show win0_1.index t (0 : Fin 2) * 3200 + 1 * (j 0).val = win0_3.index t (0 : Fin 2) * 3200 + 1 * (j 0).val; rw [e10, e30]
    | ⟨1, _⟩ => show win0_1.index t (1 : Fin 2) * 256 + 1 * (j 1).val = win0_3.index t (1 : Fin 2) * 256 + 1 * (j 1).val; rw [e11, e31]
  · show V c main_arg3 (((cfg0.win 2).blk t).view.emb (ix2 k (j 1)))
      = V c main_arg3 (ix2 k ((((cfg0.win 3).blk t).view.emb j) 1))
    refine congrArg (V c main_arg3) (funext fun a => Fin.ext ?_)
    match a with
    | ⟨0, _⟩ => show win0_2.index t (0 : Fin 2) * 64 + 1 * k.val = k.val; rw [e20]; omega
    | ⟨1, _⟩ => show win0_2.index t (1 : Fin 2) * 256 + 1 * (j 1).val = win0_3.index t (1 : Fin 2) * 256 + 1 * (j 1).val; rw [e21, e31]

/-- An edge row and channel lie in point `t`'s block iff each coordinate is in the block's range on its axis. -/
theorem mem_blk (t : Fin cfg0.N) (i : S320000x256.Idx) :
    i ∈ ((cfg0.win 3).blk t).view.set ↔ ∀ a : Fin 2, win0_3.index t a * S3200x256.size a ≤ (i a).val ∧ (i a).val < win0_3.index t a * S3200x256.size a + S3200x256.size a := by
  show i ∈ ((View.whole main_v11).slice (win0_3.rect t)).set ↔ _
  rw [View.set_slice_whole, Rect.mem_set_unit]
  exact Iff.rfl

/-- Every edge row lies in a block: row `r` in block `r / 3200`. -/
theorem cover (i : S320000x256.Idx) :
    ∃ t : Fin cfg0.N, (cfg0.win 3).flush t = true ∧ i ∈ ((cfg0.win 3).blk t).view.set := by
  have hi0 : (i 0).val < 320000 := (i 0).isLt
  have hi1 : (i 1).val < 256 := (i 1).isLt
  have hN : cfg0.N = 100 := N_0
  let t : Fin cfg0.N := ⟨(i 0).val / 3200, by rw [hN]; omega⟩
  obtain ⟨-, -, -, -, -, -, e30, e31⟩ := idx_facts t
  have e30' : win0_3.index t (0 : Fin 2) = (i 0).val / 3200 := e30
  refine ⟨t, flush0_3 t, ?_⟩
  rw [mem_blk]
  intro a
  match a with
  | ⟨0, _⟩ => show win0_3.index t (0 : Fin 2) * 3200 ≤ (i 0).val ∧ (i 0).val < win0_3.index t (0 : Fin 2) * 3200 + 3200; rw [e30']; omega
  | ⟨1, _⟩ => show win0_3.index t (1 : Fin 2) * 256 ≤ (i 1).val ∧ (i 1).val < win0_3.index t (1 : Fin 2) * 256 + 256; rw [e31]; omega

/-- THE EDGE REGION'S RESULT: after the region its output array holds, for every edge and channel, the gathered source
    feature times the projected edge attribute — the messages of the three arrays the region finds. -/
theorem value (c : Dev nD) :
    (dat0 (F := Ideal) V c).arrAt 3 cfg0.N = messageArr (V c main_v10) (V c main_arg2) (V c main_arg3) :=
  (dat0 (F := Ideal) V c).arrAt_eq_of_cover 3 (messageArr (V c main_v10) (V c main_arg2) (V c main_arg3))
    (fun t _ => flushed_eq V c t) cover

end Cert.KernelIdeal.EdgeRegion

end
-- ==== Proof.LibSums.lean ====
/-
  Re-indexing of finite sums: a sum over n·m consecutive positions as a double sum over n blocks of m, and its
  instances for the row pairs (100000 = 50000·2), the row blocks (50000 = 10·5000) and a block-diagonal
  contraction (128 = 2·64).
-/
import Mathlib

open scoped BigOperators

namespace Cert.Repack

/-- Position b of block a, among n blocks of m, lies below n·m. -/
theorem block_lt {n m N a b : ℕ} (h : n * m = N) (ha : a < n) (hb : b < m) : m * a + b < N := by
  have h1 : m * (a + 1) ≤ m * n := Nat.mul_le_mul_left m ha
  have h2 : m * (a + 1) = m * a + m := Nat.mul_succ m a
  have h3 : m * n = N := by rw [Nat.mul_comm]; exact h
  omega

/-- BLOCKS. A sum over N = n·m positions is the sum over the n blocks of the sums over each block's m positions,
    position b of block a being m·a + b. -/
theorem sum_blocks {M : Type*} [AddCommMonoid M] {N : ℕ} (n m : ℕ) (h : n * m = N) (g : Fin N → M) :
    ∑ k : Fin N, g k = ∑ a : Fin n, ∑ b : Fin m, g ⟨m * a.val + b.val, block_lt h a.isLt b.isLt⟩ := by
  subst h
  rw [← Equiv.sum_comp finProdFinEquiv g, Fintype.sum_prod_type]
  refine Finset.sum_congr rfl fun a _ => Finset.sum_congr rfl fun b _ => ?_
  refine congrArg g (Fin.ext ?_)
  show b.val + m * a.val = m * a.val + b.val
  omega

/-- ROW PAIRS. A sum over 100000 rows is the sum over the even rows plus the sum over the odd rows. -/
theorem sum_rows_even_odd {M : Type*} [AddCommMonoid M] (g : Fin 100000 → M) :
    ∑ r : Fin 100000, g r
      = ∑ i : Fin 50000, g ⟨2 * i.val, by have := i.isLt; omega⟩
        + ∑ i : Fin 50000, g ⟨2 * i.val + 1, by have := i.isLt; omega⟩ := by
  rw [sum_blocks 50000 2 (by norm_num) g, ← Finset.sum_add_distrib]
  refine Finset.sum_congr rfl fun i _ => ?_
  rw [Fin.sum_univ_two]
  rfl

/-- ROW BLOCKS. A sum over 50000 rows is the sum over 10 blocks of the sums over each block's 5000 rows. -/
theorem sum_row_blocks {M : Type*} [AddCommMonoid M] (g : Fin 50000 → M) :
    ∑ i : Fin 50000, g i
      = ∑ t : Fin 10, ∑ r : Fin 5000, g ⟨5000 * t.val + r.val, by have := t.isLt; have := r.isLt; omega⟩ := by
  rw [sum_blocks 10 5000 (by norm_num) g]

/-- BLOCK-DIAGONAL CONTRACTION. Against a column that is w on the e-th block of 64 positions and zero on the other,
    a contraction over 128 positions is the contraction over that block's 64 positions (each term of the other
    block is a product with zero). -/
theorem sum_block_diag (f : Fin 128 → EReal) (w : Fin 64 → EReal) (e : Fin 2) :
    ∑ k : Fin 128, f k * (if k.val / 64 = e.val then w ⟨k.val % 64, Nat.mod_lt _ (by norm_num)⟩ else 0)
      = ∑ k : Fin 64, f ⟨64 * e.val + k.val, by have := e.isLt; have := k.isLt; omega⟩ * w k := by
  rw [sum_blocks 2 64 (by norm_num)]
  have hblock : ∀ a : Fin 2,
      (∑ b : Fin 64, f ⟨64 * a.val + b.val, block_lt (by norm_num) a.isLt b.isLt⟩
          * (if (64 * a.val + b.val) / 64 = e.val
              then w ⟨(64 * a.val + b.val) % 64, Nat.mod_lt _ (by norm_num)⟩ else 0))
        = if a = e then ∑ k : Fin 64, f ⟨64 * e.val + k.val, by have := e.isLt; have := k.isLt; omega⟩ * w k else 0 := by
    intro a
    by_cases hae : a = e
    · subst hae
      rw [if_pos rfl]
      refine Finset.sum_congr rfl fun b _ => ?_
      have hb := b.isLt
      rw [if_pos (by omega)]
      congr 2
      exact Fin.ext (by show (64 * a.val + b.val) % 64 = b.val; omega)
    · rw [if_neg hae]
      refine Finset.sum_eq_zero fun b _ => ?_
      have hb := b.isLt
      have hne : ¬ (64 * a.val + b.val) / 64 = e.val := by
        intro hc
        exact hae (Fin.ext (by omega))
      rw [if_neg hne, mul_zero]
  exact (Finset.sum_congr rfl fun a _ => hblock a).trans (by rw [Finset.sum_ite_eq' Finset.univ e]; simp)

end Cert.Repack
-- ==== Proof.NodeRegion.lean ====
/-
  The node-update region of the idealized kernel, read as values.

  The region runs over ten grid points. Point t loads rows 2000·t … 2000·t + 1999 of the per-node message sums and of
  the node features, the two 256 by 256 weight matrices and the bias row, and computes the block of hidden values
  max (agg·W_rel + b + x·W_root) 0. It writes that block back, and keeps two rows across the points: the column sums of
  the hidden values and of their squares, set to zero at the first point and written back after the last. So after the
  region the first output array holds the hidden values of all 20000 nodes and the two rows hold, per channel, the
  sum over all nodes of the hidden values and of their squares — sums over ten blocks of 2000 regrouped as one sum
  over 20000.
-/
import proofs.«169426_j11020886081778_1_alg».proof.Proof.Spec
import proofs.«169426_j11020886081778_1_alg».proof.Proof.LibSums
import proofs.«169426_j11020886081778_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open scoped BigOperators

namespace Cert.KernelIdeal.NodeRegion

open Cert.KernelIdeal Cert.KernelIdeal.Gen Idealize.ShloMosaic.ValueIdx

variable {F : FTy → Type} [FloatOps F]

theorem hz : (![0, 0] : Fin 2 → Nat) = fun _ => 0 := funext fun a => by fin_cases a <;> rfl

/-! ## What one grid point's body leaves in the three output buffers

The body computes the block of hidden values `k1_pay4` from the five input blocks, stores it, and adds the block's
column sums (and the column sums of its squares) to the two running rows. At the first point the two rows are first set
to zero, so what is added to is the zero row; at the other points it is what the point before left. -/

/-- A later point leaves the hidden block in the first output. -/
theorem later_hidden (c : Dev nD) (i : grid1.Coords) (a1 : Memref sig .tc .vmem S2000x256 .f32) (h1 : a1.IsWhole)
    (a2 : Memref sig .tc .vmem S2000x256 .f32) (h2 : a2.IsWhole) (a3 : Memref sig .tc .vmem S256x256 .f32) (h3 : a3.IsWhole)
    (a4 : Memref sig .tc .vmem S1x256 .f32) (h4 : a4.IsWhole) (a5 : Memref sig .tc .vmem S256x256 .f32) (h5 : a5.IsWhole)
    (a6 : Memref sig .tc .vmem S2000x256 .f32) (h6 : a6.IsWhole) (a7 : Memref sig .tc .vmem S1x256 .f32) (h7 : a7.IsWhole)
    (a8 : Memref sig .tc .vmem S1x256 .f32) (h8 : a8.IsWhole) (hc : ¬cond1_0 i)
    (x0 x1 : Vec F S2000x256 .f32) (x2 : Vec F S256x256 .f32) (x3 : Vec F S1x256 .f32) (x4 : Vec F S256x256 .f32) (xo6 xo7 : Vec F S1x256 .f32) :
    out1_B_5 c i a1 h1 a2 h2 a3 h3 a4 h4 a5 h5 a6 h6 a7 h7 a8 h8 hc x0 x1 x2 x3 x4 xo6 xo7 = k1_pay4 x0 x1 x2 x4 x3 := by
  unfold out1_B_5
  rw [View.read_writes_eq_canon _ _ _ (cover1_B_5 c i a1 h1 a2 h2 a3 h3 a4 h4 a5 h5 a6 h6 a7 h7 a8 h8 hc x0 x1 x2 x3 x4 xo6 xo7)]
  unfold kernelRun1_B
  dsimp only
  rw [View.canon_unit_zero hz]
  simp only [View.readAt_eq_ld, h1.read_unread, h2.read_unread, h3.read_unread, h4.read_unread, h5.read_unread, h7.read_unread, h8.read_unread,
    View.ld_unit_zero (S := S2000x256) hz, View.ld_unit_zero (S := S256x256) hz, View.ld_unit_zero (S := S1x256) hz]

/-- A later point adds the block's column sums to the running row of sums. -/
theorem later_sum (c : Dev nD) (i : grid1.Coords) (a1 : Memref sig .tc .vmem S2000x256 .f32) (h1 : a1.IsWhole)
    (a2 : Memref sig .tc .vmem S2000x256 .f32) (h2 : a2.IsWhole) (a3 : Memref sig .tc .vmem S256x256 .f32) (h3 : a3.IsWhole)
    (a4 : Memref sig .tc .vmem S1x256 .f32) (h4 : a4.IsWhole) (a5 : Memref sig .tc .vmem S256x256 .f32) (h5 : a5.IsWhole)
    (a6 : Memref sig .tc .vmem S2000x256 .f32) (h6 : a6.IsWhole) (a7 : Memref sig .tc .vmem S1x256 .f32) (h7 : a7.IsWhole)
    (a8 : Memref sig .tc .vmem S1x256 .f32) (h8 : a8.IsWhole) (hc : ¬cond1_0 i)
    (x0 x1 : Vec F S2000x256 .f32) (x2 : Vec F S256x256 .f32) (x3 : Vec F S1x256 .f32) (x4 : Vec F S256x256 .f32) (xo6 xo7 : Vec F S1x256 .f32) :
    out1_B_6 c i a1 h1 a2 h2 a3 h3 a4 h4 a5 h5 a6 h6 a7 h7 a8 h8 hc x0 x1 x2 x3 x4 xo6 xo7 = k1_pay5 x0 x1 x2 x4 x3 xo6 := by
  unfold out1_B_6
  rw [View.read_writes_eq_canon _ _ _ (cover1_B_6 c i a1 h1 a2 h2 a3 h3 a4 h4 a5 h5 a6 h6 a7 h7 a8 h8 hc x0 x1 x2 x3 x4 xo6 xo7)]
  unfold kernelRun1_B
  dsimp only
  rw [View.canon_unit_zero hz]
  simp only [View.readAt_eq_ld, h1.read_unread, h2.read_unread, h3.read_unread, h4.read_unread, h5.read_unread, h7.read_unread, h8.read_unread,
    View.ld_unit_zero (S := S2000x256) hz, View.ld_unit_zero (S := S256x256) hz, View.ld_unit_zero (S := S1x256) hz]

/-- A later point adds the column sums of the block's squares to the running row of sums of squares. -/
theorem later_sumsq (c : Dev nD) (i : grid1.Coords) (a1 : Memref sig .tc .vmem S2000x256 .f32) (h1 : a1.IsWhole)
    (a2 : Memref sig .tc .vmem S2000x256 .f32) (h2 : a2.IsWhole) (a3 : Memref sig .tc .vmem S256x256 .f32) (h3 : a3.IsWhole)
    (a4 : Memref sig .tc .vmem S1x256 .f32) (h4 : a4.IsWhole) (a5 : Memref sig .tc .vmem S256x256 .f32) (h5 : a5.IsWhole)
    (a6 : Memref sig .tc .vmem S2000x256 .f32) (h6 : a6.IsWhole) (a7 : Memref sig .tc .vmem S1x256 .f32) (h7 : a7.IsWhole)
    (a8 : Memref sig .tc .vmem S1x256 .f32) (h8 : a8.IsWhole) (hc : ¬cond1_0 i)
    (x0 x1 : Vec F S2000x256 .f32) (x2 : Vec F S256x256 .f32) (x3 : Vec F S1x256 .f32) (x4 : Vec F S256x256 .f32) (xo6 xo7 : Vec F S1x256 .f32) :
    out1_B_7 c i a1 h1 a2 h2 a3 h3 a4 h4 a5 h5 a6 h6 a7 h7 a8 h8 hc x0 x1 x2 x3 x4 xo6 xo7 = k1_pay1 (k1_pay6 xo7) (k1_pay7 x0 x1 x2 x4 x3) := by
  unfold out1_B_7
  rw [View.read_writes_eq_canon _ _ _ (cover1_B_7 c i a1 h1 a2 h2 a3 h3 a4 h4 a5 h5 a6 h6 a7 h7 a8 h8 hc x0 x1 x2 x3 x4 xo6 xo7)]
  unfold kernelRun1_B
  dsimp only
  rw [View.canon_unit_zero hz]
  sl_unfold_words
  simp only [View.readAt_eq_ld, h1.read_unread, h2.read_unread, h3.read_unread, h4.read_unread, h5.read_unread, h7.read_unread, h8.read_unread,
    View.ld_unit_zero (S := S2000x256) hz, View.ld_unit_zero (S := S256x256) hz, View.ld_unit_zero (S := S1x256) hz]

/-- The first point leaves the hidden block in the first output. -/
theorem first_hidden (c : Dev nD) (i : grid1.Coords) (a1 : Memref sig .tc .vmem S2000x256 .f32) (h1 : a1.IsWhole)
    (a2 : Memref sig .tc .vmem S2000x256 .f32) (h2 : a2.IsWhole) (a3 : Memref sig .tc .vmem S256x256 .f32) (h3 : a3.IsWhole)
    (a4 : Memref sig .tc .vmem S1x256 .f32) (h4 : a4.IsWhole) (a5 : Memref sig .tc .vmem S256x256 .f32) (h5 : a5.IsWhole)
    (a6 : Memref sig .tc .vmem S2000x256 .f32) (h6 : a6.IsWhole) (a7 : Memref sig .tc .vmem S1x256 .f32) (h7 : a7.IsWhole)
    (a8 : Memref sig .tc .vmem S1x256 .f32) (h8 : a8.IsWhole) (hc : cond1_0 i)
    (x0 x1 : Vec F S2000x256 .f32) (x2 : Vec F S256x256 .f32) (x3 : Vec F S1x256 .f32) (x4 : Vec F S256x256 .f32) :
    out1_A_5 c i a1 h1 a2 h2 a3 h3 a4 h4 a5 h5 a6 h6 a7 h7 a8 h8 hc x0 x1 x2 x3 x4 = k1_pay4 x0 x1 x2 x4 x3 := by
  unfold out1_A_5
  rw [View.read_writes_eq_canon _ _ _ (cover1_A_5 c i a1 h1 a2 h2 a3 h3 a4 h4 a5 h5 a6 h6 a7 h7 a8 h8 hc x0 x1 x2 x3 x4)]
  unfold kernelRun1_A
  dsimp only
  rw [View.canon_unit_zero hz]
  simp only [View.readAt_eq_ld, h1.read_unread, h2.read_unread, h3.read_unread, h4.read_unread, h5.read_unread, h7.read_unread, h8.read_unread,
    View.ld_unit_zero (S := S2000x256) hz, View.ld_unit_zero (S := S256x256) hz, View.ld_unit_zero (S := S1x256) hz]

/-- The first point sets the row of sums to zero and adds the block's column sums to it. -/
theorem first_sum (c : Dev nD) (i : grid1.Coords) (a1 : Memref sig .tc .vmem S2000x256 .f32) (h1 : a1.IsWhole)
    (a2 : Memref sig .tc .vmem S2000x256 .f32) (h2 : a2.IsWhole) (a3 : Memref sig .tc .vmem S256x256 .f32) (h3 : a3.IsWhole)
    (a4 : Memref sig .tc .vmem S1x256 .f32) (h4 : a4.IsWhole) (a5 : Memref sig .tc .vmem S256x256 .f32) (h5 : a5.IsWhole)
    (a6 : Memref sig .tc .vmem S2000x256 .f32) (h6 : a6.IsWhole) (a7 : Memref sig .tc .vmem S1x256 .f32) (h7 : a7.IsWhole)
    (a8 : Memref sig .tc .vmem S1x256 .f32) (h8 : a8.IsWhole) (hc : cond1_0 i)
    (x0 x1 : Vec F S2000x256 .f32) (x2 : Vec F S256x256 .f32) (x3 : Vec F S1x256 .f32) (x4 : Vec F S256x256 .f32) :
    out1_A_6 c i a1 h1 a2 h2 a3 h3 a4 h4 a5 h5 a6 h6 a7 h7 a8 h8 hc x0 x1 x2 x3 x4 = k1_pay5 x0 x1 x2 x4 x3 k1_pay2 := by
  unfold out1_A_6
  rw [View.read_writes_eq_canon _ _ _ (cover1_A_6 c i a1 h1 a2 h2 a3 h3 a4 h4 a5 h5 a6 h6 a7 h7 a8 h8 hc x0 x1 x2 x3 x4)]
  unfold kernelRun1_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h7.read_unread, h8.read_unread,
    View.ld_unit_zero (S := S2000x256) hz, View.ld_unit_zero (S := S256x256) hz, View.ld_unit_zero (S := S1x256) hz]

/-- The first point sets the row of sums of squares to zero and adds the column sums of the block's squares to it. -/
theorem first_sumsq (c : Dev nD) (i : grid1.Coords) (a1 : Memref sig .tc .vmem S2000x256 .f32) (h1 : a1.IsWhole)
    (a2 : Memref sig .tc .vmem S2000x256 .f32) (h2 : a2.IsWhole) (a3 : Memref sig .tc .vmem S256x256 .f32) (h3 : a3.IsWhole)
    (a4 : Memref sig .tc .vmem S1x256 .f32) (h4 : a4.IsWhole) (a5 : Memref sig .tc .vmem S256x256 .f32) (h5 : a5.IsWhole)
    (a6 : Memref sig .tc .vmem S2000x256 .f32) (h6 : a6.IsWhole) (a7 : Memref sig .tc .vmem S1x256 .f32) (h7 : a7.IsWhole)
    (a8 : Memref sig .tc .vmem S1x256 .f32) (h8 : a8.IsWhole) (hc : cond1_0 i)
    (x0 x1 : Vec F S2000x256 .f32) (x2 : Vec F S256x256 .f32) (x3 : Vec F S1x256 .f32) (x4 : Vec F S256x256 .f32) :
    out1_A_7 c i a1 h1 a2 h2 a3 h3 a4 h4 a5 h5 a6 h6 a7 h7 a8 h8 hc x0 x1 x2 x3 x4 = k1_pay1 (k1_pay6 k1_pay3) (k1_pay7 x0 x1 x2 x4 x3) := by
  unfold out1_A_7
  rw [View.read_writes_eq_canon _ _ _ (cover1_A_7 c i a1 h1 a2 h2 a3 h3 a4 h4 a5 h5 a6 h6 a7 h7 a8 h8 hc x0 x1 x2 x3 x4)]
  unfold kernelRun1_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h7.read_unread, h8.read_unread,
    View.ld_unit_zero (S := S2000x256) hz, View.ld_unit_zero (S := S256x256) hz, View.ld_unit_zero (S := S1x256) hz]

/-! ## The three payloads read at an index, on the extended reals

A matrix product into a zero accumulator is the plain sum of products over the contracted axis; the change of format
before it is the identity; a row is broadcast over the block's rows; a column sum is a sum over the block's 2000 rows. -/

theorem dot_lhs_row (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem dot_lhs_inner (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem dot_rhs_inner (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem dot_rhs_col (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A block of 2000 rows times a 256 by 256 matrix, into zero: entry (p, q) is the sum over k of l[p,k] · r[k,q]. -/
theorem matmul_at {φ₁ φ₂ : FTy} (l : FVec Ideal S2000x256 φ₁) (r : FVec Ideal S256x256 φ₂) (p : Fin 2000) (q : Fin 256) :
    matmul dot_S2000x256_S256x256_S2000x256_1_0_0_1_n_n none l r (constant S2000x256 .f32 0x00000000#32) (ix2 p q) = ∑ k : Fin 256, l (ix2 p k) * r (ix2 k q) := by
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact dot_lhs_row _ _
    | ⟨1, _⟩ => exact (dot_lhs_inner _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (dot_rhs_inner _ _).trans hk
    | ⟨1, _⟩ => exact dot_rhs_col _ _)
  rw [el, er]

/-- The hidden block at row p, channel q: the two products' sums, the bias row's entry, and the maximum with zero. -/
theorem hidden_block_at (x0 x1 : Vec Ideal S2000x256 .f32) (x2 x4 : Vec Ideal S256x256 .f32) (x3 : Vec Ideal S1x256 .f32)
    (p : Fin 2000) (q : Fin 256) :
    k1_pay4 (F := Ideal) x0 x1 x2 x4 x3 (ix2 p q)
      = max ((∑ k : Fin 256, x0 (ix2 p k) * x2 (ix2 k q)) + x3 (ix2 (0 : Fin 1) q) + ∑ k : Fin 256, x1 (ix2 p k) * x4 (ix2 k q)) 0 := by
  unfold k1_pay4
  show max ((matmul (F := Ideal) dot_S2000x256_S256x256_S2000x256_1_0_0_1_n_n none (truncf (F := Ideal) .bf16 (shapeCast S2000x256 x0 shapeCasts_S2000x256_S2000x256) bitsLt_bf16_f32) (truncf (F := Ideal) .bf16 x2 bitsLt_bf16_f32) (constant (F := Ideal) S2000x256 .f32 0x00000000#32)) (ix2 p q)
        + (broadcastTo S2000x256 (shapeCast S1x256 x3 shapeCasts_S1x256_S1x256) broadcasts_S1x256_S2000x256) (ix2 p q)
        + (matmul (F := Ideal) dot_S2000x256_S256x256_S2000x256_1_0_0_1_n_n none (truncf (F := Ideal) .bf16 x1 bitsLt_bf16_f32) (truncf (F := Ideal) .bf16 x4 bitsLt_bf16_f32) (constant (F := Ideal) S2000x256 .f32 0x00000000#32)) (ix2 p q))
      (Ideal.ofBits .f32 0x00000000#32) = _
  rw [matmul_at, matmul_at, broadcastTo_1b_ab_apply, shapeCast_self, shapeCast_self, Ideal.ofBits_zero_f32]
  rfl

/-- A column sum of a block of 2000 rows, kept as a row: entry (0, q) is the sum over the rows p of the block at (p, q). -/
theorem column_sum_at (v : FVec Ideal S2000x256 .f32) (hacc : (0x00000000#32 : BitVec 32) = 0x00000000#32) (q : Fin 256) :
    shapeCast S1x256 (multiReduction .add [0] S256 v 0x00000000#32 reduces_S2000x256_S256 (.inl rfl) hacc) shapeCasts_S256_S1x256 (ix2 (0 : Fin 1) q)
      = ∑ p : Fin 2000, v (ix2 p q) := by
  refine (shapeCast_a_1a_apply _ shapeCasts_S256_S1x256 (0 : Fin 1) q).trans ?_
  refine (Ideal.multiReduction_add_single v 0x00000000#32 reduces_S2000x256_S256 (.inl rfl) hacc (ix1 q)).trans ?_
  show (∑ k : Fin 2000, v (reduces_S2000x256_S256.lift (ix1 q) k)) = ∑ p : Fin 2000, v (ix2 p q)
  refine Finset.sum_congr rfl fun k _ => congrArg v (funext fun a => Fin.ext ?_)
  match a with
  | ⟨0, _⟩ => rfl
  | ⟨1, _⟩ => rfl

/-- The row of sums after a point: what it held before plus the hidden block's column sums. -/
theorem sum_row_at (x0 x1 : Vec Ideal S2000x256 .f32) (x2 x4 : Vec Ideal S256x256 .f32) (x3 v : Vec Ideal S1x256 .f32) (q : Fin 256) :
    k1_pay5 (F := Ideal) x0 x1 x2 x4 x3 v (ix2 (0 : Fin 1) q)
      = v (ix2 (0 : Fin 1) q) + ∑ p : Fin 2000, k1_pay4 (F := Ideal) x0 x1 x2 x4 x3 (ix2 p q) := by
  unfold k1_pay5
  show (shapeCast S1x256 v shapeCasts_S1x256_S1x256) (ix2 (0 : Fin 1) q)
      + (shapeCast S1x256 (multiReduction .add [0] S256 (k1_pay4 (F := Ideal) x0 x1 x2 x4 x3) 0x00000000#32 reduces_S2000x256_S256 (.inl rfl) rfl) shapeCasts_S256_S1x256) (ix2 (0 : Fin 1) q) = _
  rw [shapeCast_self, column_sum_at]

/-- The row of sums of squares after a point: what it held before plus the column sums of the hidden block's squares. -/
theorem sumsq_row_at (x0 x1 : Vec Ideal S2000x256 .f32) (x2 x4 : Vec Ideal S256x256 .f32) (x3 v : Vec Ideal S1x256 .f32) (q : Fin 256) :
    k1_pay1 (F := Ideal) (k1_pay6 v) (k1_pay7 x0 x1 x2 x4 x3) (ix2 (0 : Fin 1) q)
      = v (ix2 (0 : Fin 1) q) + ∑ p : Fin 2000, k1_pay4 (F := Ideal) x0 x1 x2 x4 x3 (ix2 p q) * k1_pay4 (F := Ideal) x0 x1 x2 x4 x3 (ix2 p q) := by
  unfold k1_pay1 k1_pay6 k1_pay7
  show (shapeCast S1x256 v shapeCasts_S1x256_S1x256) (ix2 (0 : Fin 1) q)
      + (shapeCast S1x256 (multiReduction .add [0] S256 (mulf (k1_pay4 (F := Ideal) x0 x1 x2 x4 x3) (k1_pay4 (F := Ideal) x0 x1 x2 x4 x3)) 0x00000000#32 reduces_S2000x256_S256 (.inl rfl) rfl) shapeCasts_S256_S1x256) (ix2 (0 : Fin 1) q) = _
  rw [shapeCast_self, column_sum_at]
  rfl

/-- The zero row the first point stores reads zero. -/
theorem zero_row_at (q : Fin 256) : (k1_pay2 (F := Ideal)) (ix2 (0 : Fin 1) q) = 0 ∧ (k1_pay3 (F := Ideal)) (ix2 (0 : Fin 1) q) = 0 :=
  ⟨Ideal.ofBits_zero_f32, Ideal.ofBits_zero_f32⟩

/-! ## The blocks a point reads, and the hidden block it computes

Point t reads rows 2000·t … 2000·t + 1999 of the message sums and of the node features, and the two weight matrices
and the bias row whole. -/

section Region

variable (V : (c : Dev nD) → (b : Ref sig .tc) → Buf (Elt Ideal) ((c : Thread nD τ).loc b)) (c : Dev nD)

/-- Row p of block s, as a row of the whole array (total in s: the ten blocks are s = 0 … 9). -/
def rowOf (s : ℕ) (p : Fin 2000) : Fin 20000 := ⟨(2000 * s + p.val) % 20000, Nat.mod_lt _ (by norm_num)⟩

/-- The hidden values of all nodes, from the arrays the region finds. -/
def hiddenOf : Cert.GraphLayer.SNode.Idx → EReal :=
  Cert.GraphLayer.hiddenArr (V c main_v14) (V c main_arg0) (V c main_arg4) (fun j => V c main_v15 (ix2 (0 : Fin 1) (j 0))) (V c main_arg6)

/-- The printed index maps over the ten points: the three row-blocked windows sit at block row t, the others at 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

theorem point_lt (t : Fin cfg1.N) : t.val < 10 := by
  have h := t.isLt
  have hN : cfg1.N = 10 := N_1
  omega

theorem agg_block_at (t : Fin cfg1.N) (p : Fin 2000) (k : Fin 256) :
    iblk1 (F := Ideal) V c 0 t (ix2 p k) = V c main_v14 (ix2 (rowOf t.val p) k) := by
  obtain ⟨e0, e1, -⟩ := index_facts t
  have ht := point_lt t
  unfold iblk1
  rw [View.read_apply]
  show V c main_v14 _ = V c main_v14 _
  congr 1
  funext a
  apply Fin.ext
  match a with
  | ⟨0, _⟩ => show win1_0.index t (0 : Fin 2) * 2000 + 1 * p.val = (2000 * t.val + p.val) % 20000; have := p.isLt; omega
  | ⟨1, _⟩ => show win1_0.index t (1 : Fin 2) * 256 + 1 * k.val = k.val; omega

theorem x_block_at (t : Fin cfg1.N) (p : Fin 2000) (k : Fin 256) :
    iblk1 (F := Ideal) V c 1 t (ix2 p k) = V c main_arg0 (ix2 (rowOf t.val p) k) := by
  obtain ⟨-, -, e0, e1, -⟩ := index_facts t
  have ht := point_lt t
  unfold iblk1
  rw [View.read_apply]
  show V c main_arg0 _ = V c main_arg0 _
  congr 1
  funext a
  apply Fin.ext
  match a with
  | ⟨0, _⟩ => show win1_1.index t (0 : Fin 2) * 2000 + 1 * p.val = (2000 * t.val + p.val) % 20000; have := p.isLt; omega
  | ⟨1, _⟩ => show win1_1.index t (1 : Fin 2) * 256 + 1 * k.val = k.val; omega

theorem wrel_block_at (t : Fin cfg1.N) (k q : Fin 256) :
    iblk1 (F := Ideal) V c 2 t (ix2 k q) = V c main_arg4 (ix2 k q) := by
  obtain ⟨-, -, -, -, e0, e1, -⟩ := index_facts t
  unfold iblk1
  rw [View.read_apply]
  show V c main_arg4 _ = V c main_arg4 _
  congr 1
  funext a
  apply Fin.ext
  match a with
  | ⟨0, _⟩ => show win1_2.index t (0 : Fin 2) * 256 + 1 * k.val = k.val; omega
  | ⟨1, _⟩ => show win1_2.index t (1 : Fin 2) * 256 + 1 * q.val = q.val; omega

theorem bias_block_at (t : Fin cfg1.N) (q : Fin 256) :
    iblk1 (F := Ideal) V c 3 t (ix2 (0 : Fin 1) q) = V c main_v15 (ix2 (0 : Fin 1) q) := by
  obtain ⟨-, -, -, -, -, -, e0, e1, -⟩ := index_facts t
  unfold iblk1
  rw [View.read_apply]
  show V c main_v15 _ = V c main_v15 _
  congr 1
  funext a
  apply Fin.ext
  match a with
  | ⟨0, _⟩ => show win1_3.index t (0 : Fin 2) * 1 + 1 * 0 = 0; omega
  | ⟨1, _⟩ => show win1_3.index t (1 : Fin 2) * 256 + 1 * q.val = q.val; omega

theorem wroot_block_at (t : Fin cfg1.N) (k q : Fin 256) :
    iblk1 (F := Ideal) V c 4 t (ix2 k q) = V c main_arg6 (ix2 k q) := by
  obtain ⟨-, -, -, -, -, -, -, -, e0, e1, -⟩ := index_facts t
  unfold iblk1
  rw [View.read_apply]
  show V c main_arg6 _ = V c main_arg6 _
  congr 1
  funext a
  apply Fin.ext
  match a with
  | ⟨0, _⟩ => show win1_4.index t (0 : Fin 2) * 256 + 1 * k.val = k.val; omega
  | ⟨1, _⟩ => show win1_4.index t (1 : Fin 2) * 256 + 1 * q.val = q.val; omega

/-- The block of hidden values point t computes is rows 2000·t … of the hidden values of all nodes. -/
theorem hidden_block_eq (t : Fin cfg1.N) (p : Fin 2000) (q : Fin 256) :
    k1_pay4 (F := Ideal) (iblk1 V c 0 t) (iblk1 V c 1 t) (iblk1 V c 2 t) (iblk1 V c 4 t) (iblk1 V c 3 t) (ix2 p q)
      = hiddenOf V c (ix2 (rowOf t.val p) q) := by
  refine (hidden_block_at (iblk1 V c 0 t) (iblk1 V c 1 t) (iblk1 V c 2 t) (iblk1 V c 4 t) (iblk1 V c 3 t) p q).trans ?_
  rw [bias_block_at V c t q]
  simp only [agg_block_at V c t, x_block_at V c t, wrel_block_at V c t, wroot_block_at V c t]
  rfl

end Region

/-! ## The three outputs after each point, by induction on the point

After point n the first output's buffer holds block n of the hidden values, and the two rows hold the column sums of
the hidden values (of their squares) over the blocks 0 … n. -/

section Region

variable (V : (c : Dev nD) → (b : Ref sig .tc) → Buf (Elt Ideal) ((c : Thread nD τ).loc b)) (c : Dev nD)

/-- The column sum of the hidden values (q = channel) over the rows of block s. -/
def blockSum (s : ℕ) (q : Fin 256) : EReal := ∑ p : Fin 2000, hiddenOf V c (ix2 (rowOf s p) q)
/-- The same for the squares. -/
def blockSumSq (s : ℕ) (q : Fin 256) : EReal := ∑ p : Fin 2000, hiddenOf V c (ix2 (rowOf s p) q) * hiddenOf V c (ix2 (rowOf s p) q)

/-- The first point. -/
theorem after_first (hn : 0 < cfg1.N) :
    (∀ (p : Fin 2000) (q : Fin 256), (outsAt1 (F := Ideal) V c 0 hn).1 (ix2 p q) = hiddenOf V c (ix2 (rowOf 0 p) q))
    ∧ (∀ q : Fin 256, (outsAt1 (F := Ideal) V c 0 hn).2.1 (ix2 (0 : Fin 1) q) = blockSum V c 0 q)
    ∧ (∀ q : Fin 256, (outsAt1 (F := Ideal) V c 0 hn).2.2 (ix2 (0 : Fin 1) q) = blockSumSq V c 0 q) := by
  let t : Fin cfg1.N := ⟨0, hn⟩
  have hA := outsAt1_A (F := Ideal) V c t rfl
  have e5 := first_hidden (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr rfl) (iblk1 V c 0 t) (iblk1 V c 1 t) (iblk1 V c 2 t) (iblk1 V c 3 t) (iblk1 V c 4 t)
  have e6 := first_sum (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr rfl) (iblk1 V c 0 t) (iblk1 V c 1 t) (iblk1 V c 2 t) (iblk1 V c 3 t) (iblk1 V c 4 t)
  have e7 := first_sumsq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr rfl) (iblk1 V c 0 t) (iblk1 V c 1 t) (iblk1 V c 2 t) (iblk1 V c 3 t) (iblk1 V c 4 t)
  have g5 := congrArg Prod.fst hA
  have g6 := congrArg (fun z => z.2.1) hA
  have g7 := congrArg (fun z => z.2.2) hA
  dsimp only at g5 g6 g7
  have h5 := g5.trans e5
  have h6 := g6.trans e6
  have h7 := g7.trans e7
  refine ⟨fun p q => ?_, fun q => ?_, fun q => ?_⟩
  · exact (congrFun h5 (ix2 p q)).trans (hidden_block_eq V c t p q)
  · refine (congrFun h6 (ix2 (0 : Fin 1) q)).trans ?_
    rw [sum_row_at, (zero_row_at q).1, zero_add]
    exact Finset.sum_congr rfl fun p _ => hidden_block_eq V c t p q
  · refine (congrFun h7 (ix2 (0 : Fin 1) q)).trans ?_
    rw [sumsq_row_at, (zero_row_at q).2, zero_add]
    exact Finset.sum_congr rfl fun p _ => by rw [hidden_block_eq V c t p q]

/-- A later point, from what the point before left in the two rows. -/
theorem after_later (t : Fin cfg1.N) (h0 : ¬t.val % 10 = 0) :
    (∀ (p : Fin 2000) (q : Fin 256), (outsAt1 (F := Ideal) V c t.val t.isLt).1 (ix2 p q) = hiddenOf V c (ix2 (rowOf t.val p) q))
    ∧ (∀ q : Fin 256, (outsAt1 (F := Ideal) V c t.val t.isLt).2.1 (ix2 (0 : Fin 1) q)
          = (outsAt1 V c (t.val - 1) (Nat.lt_of_le_of_lt (Nat.sub_le _ _) t.isLt)).2.1 (ix2 (0 : Fin 1) q) + blockSum V c t.val q)
    ∧ (∀ q : Fin 256, (outsAt1 (F := Ideal) V c t.val t.isLt).2.2 (ix2 (0 : Fin 1) q)
          = (outsAt1 V c (t.val - 1) (Nat.lt_of_le_of_lt (Nat.sub_le _ _) t.isLt)).2.2 (ix2 (0 : Fin 1) q) + blockSumSq V c t.val q) := by
  have hB := outsAt1_B (F := Ideal) V c t h0
  have hc : ¬cond1_0 (grid1.coords t) := fun h => h0 ((hcond1_0 t).mp h)
  have e5 := later_hidden (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) hc (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2
  have e6 := later_sum (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) hc (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2
  have e7 := later_sumsq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) hc (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2
  have g5 := congrArg Prod.fst hB
  have g6 := congrArg (fun z => z.2.1) hB
  have g7 := congrArg (fun z => z.2.2) hB
  dsimp only at g5 g6 g7
  have h5 := g5.trans e5
  have h6 := g6.trans e6
  have h7 := g7.trans e7
  refine ⟨fun p q => ?_, fun q => ?_, fun q => ?_⟩
  · exact (congrFun h5 (ix2 p q)).trans (hidden_block_eq V c t p q)
  · refine (congrFun h6 (ix2 (0 : Fin 1) q)).trans ?_
    rw [sum_row_at]
    exact congrArg _ (Finset.sum_congr rfl fun p _ => hidden_block_eq V c t p q)
  · refine (congrFun h7 (ix2 (0 : Fin 1) q)).trans ?_
    rw [sumsq_row_at]
    exact congrArg _ (Finset.sum_congr rfl fun p _ => by rw [hidden_block_eq V c t p q])

/-- After point n: block n of the hidden values, and the column sums over the blocks 0 … n. -/
theorem after_point : ∀ (n : ℕ) (hn : n < cfg1.N),
    (∀ (p : Fin 2000) (q : Fin 256), (outsAt1 (F := Ideal) V c n hn).1 (ix2 p q) = hiddenOf V c (ix2 (rowOf n p) q))
    ∧ (∀ q : Fin 256, (outsAt1 (F := Ideal) V c n hn).2.1 (ix2 (0 : Fin 1) q) = ∑ s ∈ Finset.range (n + 1), blockSum V c s q)
    ∧ (∀ q : Fin 256, (outsAt1 (F := Ideal) V c n hn).2.2 (ix2 (0 : Fin 1) q) = ∑ s ∈ Finset.range (n + 1), blockSumSq V c s q)
  | 0, hn => by
    obtain ⟨a, b, d⟩ := after_first V c hn
    exact ⟨a, fun q => (b q).trans (by rw [Finset.sum_range_succ, Finset.sum_range_zero, zero_add]),
      fun q => (d q).trans (by rw [Finset.sum_range_succ, Finset.sum_range_zero, zero_add])⟩
  | n + 1, hn => by
    obtain ⟨-, ih6, ih7⟩ := after_point n (Nat.lt_of_succ_lt hn)
    have ht : n + 1 < 10 := point_lt ⟨n + 1, hn⟩
    obtain ⟨a, b, d⟩ := after_later V c ⟨n + 1, hn⟩ (by show ¬(n + 1) % 10 = 0; omega)
    refine ⟨a, fun q => ?_, fun q => ?_⟩
    · rw [Finset.sum_range_succ]
      exact (b q).trans (congrArg (· + blockSum V c (n + 1) q) (ih6 q))
    · rw [Finset.sum_range_succ]
      exact (d q).trans (congrArg (· + blockSumSq V c (n + 1) q) (ih7 q))

end Region

/-! ## The three arrays the region leaves

The hidden values are written back block by block and the ten blocks cover the array. The two rows are written back
once, after the last point, when they hold the column sums over all ten blocks, that is over all 20000 nodes. -/

/-- Ten blocks of 2000 rows are the 20000 rows. -/
theorem blocks_sum (f : Fin 20000 → EReal) : ∑ s ∈ Finset.range 10, ∑ p : Fin 2000, f (rowOf s p) = ∑ r : Fin 20000, f r := by
  rw [Cert.Repack.sum_blocks 10 2000 (by norm_num) f, Finset.sum_range]
  refine Finset.sum_congr rfl fun a _ => Finset.sum_congr rfl fun b _ => congrArg f (Fin.ext ?_)
  show (2000 * a.val + b.val) % 20000 = 2000 * a.val + b.val
  have := a.isLt
  have := b.isLt
  omega

section Region

variable (V : (c : Dev nD) → (b : Ref sig .tc) → Buf (Elt Ideal) ((c : Thread nD τ).loc b)) (c : Dev nD)

/-- The row of column sums of the hidden values. -/
def sumRow : S1x256.Idx → EReal := fun j => Cert.GraphLayer.colSum (hiddenOf V c) (j 1)
/-- The row of column sums of their squares. -/
def sumSqRow : S1x256.Idx → EReal := fun j => Cert.GraphLayer.colSumSq (hiddenOf V c) (j 1)

theorem sumRow_at (u : Fin 1) (q : Fin 256) : sumRow V c (ix2 u q) = Cert.GraphLayer.colSum (hiddenOf V c) q := rfl
theorem sumSqRow_at (u : Fin 1) (q : Fin 256) : sumSqRow V c (ix2 u q) = Cert.GraphLayer.colSumSq (hiddenOf V c) q := rfl

theorem all_blocks_sum (q : Fin 256) : ∑ s ∈ Finset.range 10, blockSum V c s q = Cert.GraphLayer.colSum (hiddenOf V c) q :=
  blocks_sum fun r => hiddenOf V c (ix2 r q)

theorem all_blocks_sumsq (q : Fin 256) : ∑ s ∈ Finset.range 10, blockSumSq V c s q = Cert.GraphLayer.colSumSq (hiddenOf V c) q :=
  blocks_sum fun r => hiddenOf V c (ix2 r q) * hiddenOf V c (ix2 r q)

/-- Entry (p, q) of the hidden values' block at point t sits at row 2000·t + p. -/
theorem hidden_emb (t : Fin cfg1.N) (p : Fin 2000) (q : Fin 256) :
    ((cfg1.win 5).blk t).view.emb (ix2 p q) = (ix2 (rowOf t.val p) q : S20000x256.Idx) := by
  obtain ⟨-, -, -, -, -, -, -, -, -, -, e0, e1, -⟩ := index_facts t
  have ht := point_lt t
  funext a
  apply Fin.ext
  match a with
  | ⟨0, _⟩ => show win1_5.index t (0 : Fin 2) * 2000 + 1 * p.val = (2000 * t.val + p.val) % 20000; have := p.isLt; omega
  | ⟨1, _⟩ => show win1_5.index t (1 : Fin 2) * 256 + 1 * q.val = q.val; omega

theorem sum_emb (t : Fin cfg1.N) (q : Fin 256) :
    ((cfg1.win 6).blk t).view.emb (ix2 (0 : Fin 1) q) = (ix2 (0 : Fin 1) q : S1x256.Idx) := by
  obtain ⟨-, -, -, -, -, -, -, -, -, -, -, -, e0, e1, -⟩ := index_facts t
  funext a
  apply Fin.ext
  match a with
  | ⟨0, _⟩ => show win1_6.index t (0 : Fin 2) * 1 + 1 * 0 = 0; omega
  | ⟨1, _⟩ => show win1_6.index t (1 : Fin 2) * 256 + 1 * q.val = q.val; omega

theorem sumsq_emb (t : Fin cfg1.N) (q : Fin 256) :
    ((cfg1.win 7).blk t).view.emb (ix2 (0 : Fin 1) q) = (ix2 (0 : Fin 1) q : S1x256.Idx) := by
  obtain ⟨-, -, -, -, -, -, -, -, -, -, -, -, -, -, e0, e1⟩ := index_facts t
  funext a
  apply Fin.ext
  match a with
  | ⟨0, _⟩ => show win1_7.index t (0 : Fin 2) * 1 + 1 * 0 = 0; omega
  | ⟨1, _⟩ => show win1_7.index t (1 : Fin 2) * 256 + 1 * q.val = q.val; omega

/-- What point t writes back to the hidden values is block t of them. -/
theorem hidden_flushed (t : Fin cfg1.N) :
    (dat1 (F := Ideal) V c).flushed 5 t = ((cfg1.win 5).blk t).view.read (Elt Ideal) (hiddenOf V c) := by
  show (cfg1.win 5).cut (grid1.coords t) ((dat1 V c).after 5 t) = _
  rw [after1_5]
  obtain ⟨h5, -, -⟩ := after_point V c t.val t.isLt
  generalize (outsAt1 (F := Ideal) V c t.val t.isLt).1 = X at h5 ⊢
  funext j
  obtain ⟨p, q, rfl⟩ : ∃ (p : Fin 2000) (q : Fin 256), j = ix2 p q := ⟨j 0, j 1, eq_ix2 j⟩
  rw [View.read_apply, hidden_emb]
  exact h5 p q

/-- The one write-back of the row of sums, after the last point, writes the column sums over all nodes. -/
theorem sum_flushed (t : Fin cfg1.N) (hf : (cfg1.win 6).flush t = true) :
    (dat1 (F := Ideal) V c).flushed 6 t = ((cfg1.win 6).blk t).view.read (Elt Ideal) (sumRow V c) := by
  have hN : cfg1.N = 10 := N_1
  have h9 : t.val = 9 := by have := (flush1_6 t).mp hf; have := t.isLt; omega
  obtain rfl : t = t1_9 := Fin.ext h9
  show (cfg1.win 6).cut (grid1.coords t1_9) ((dat1 V c).after 6 t1_9) = _
  rw [after1_6]
  have hz' : (fun a => win1_6.index t1_9 a * main_v16_1.ty.shape.size a) = fun _ => 0 := funext fun a => by fin_cases a <;> decide
  refine Eq.trans ?_ (Memref.read_access_unit_zero (Elt Ideal) main_v16_1 hz' (fun a => by rw [congrFun hz' a]; simp) (sumRow V c)).symm
  obtain ⟨h5, h6, h7⟩ := after_point V c t1_9.val t1_9.isLt
  generalize (outsAt1 (F := Ideal) V c t1_9.val t1_9.isLt).2.1 = X at h6 ⊢
  funext j
  obtain ⟨u, q, rfl⟩ : ∃ (u : Fin 1) (q : Fin 256), j = ix2 u q := ⟨j 0, j 1, eq_ix2 j⟩
  obtain rfl : u = 0 := Subsingleton.elim _ _
  exact (h6 q).trans ((all_blocks_sum V c q).trans (sumRow_at V c 0 q).symm)

/-- The same for the row of sums of squares. -/
theorem sumsq_flushed (t : Fin cfg1.N) (hf : (cfg1.win 7).flush t = true) :
    (dat1 (F := Ideal) V c).flushed 7 t = ((cfg1.win 7).blk t).view.read (Elt Ideal) (sumSqRow V c) := by
  have hN : cfg1.N = 10 := N_1
  have h9 : t.val = 9 := by have := (flush1_7 t).mp hf; have := t.isLt; omega
  obtain rfl : t = t1_9 := Fin.ext h9
  show (cfg1.win 7).cut (grid1.coords t1_9) ((dat1 V c).after 7 t1_9) = _
  rw [after1_7]
  have hz' : (fun a => win1_7.index t1_9 a * main_v16_2.ty.shape.size a) = fun _ => 0 := funext fun a => by fin_cases a <;> decide
  refine Eq.trans ?_ (Memref.read_access_unit_zero (Elt Ideal) main_v16_2 hz' (fun a => by rw [congrFun hz' a]; simp) (sumSqRow V c)).symm
  obtain ⟨h5, h6, h7⟩ := after_point V c t1_9.val t1_9.isLt
  generalize (outsAt1 (F := Ideal) V c t1_9.val t1_9.isLt).2.2 = X at h7 ⊢
  funext j
  obtain ⟨u, q, rfl⟩ : ∃ (u : Fin 1) (q : Fin 256), j = ix2 u q := ⟨j 0, j 1, eq_ix2 j⟩
  obtain rfl : u = 0 := Subsingleton.elim _ _
  exact (h7 q).trans ((all_blocks_sumsq V c q).trans (sumSqRow_at V c 0 q).symm)

end Region

theorem hidden_mem_blk (t : Fin cfg1.N) (i : S20000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v16_0).slice (win1_5.rect t)).set ↔ _
  rw [View.set_slice_whole, Rect.mem_set_unit]
  exact Iff.rfl

theorem sum_mem_blk (t : Fin cfg1.N) (i : S1x256.Idx) :
    i ∈ ((cfg1.win 6).blk t).view.set ↔ ∀ a : Fin 2, win1_6.index t a * S1x256.size a ≤ (i a).val ∧ (i a).val < win1_6.index t a * S1x256.size a + S1x256.size a := by
  show i ∈ ((View.whole main_v16_1).slice (win1_6.rect t)).set ↔ _
  rw [View.set_slice_whole, Rect.mem_set_unit]
  exact Iff.rfl

theorem sumsq_mem_blk (t : Fin cfg1.N) (i : S1x256.Idx) :
    i ∈ ((cfg1.win 7).blk t).view.set ↔ ∀ a : Fin 2, win1_7.index t a * S1x256.size a ≤ (i a).val ∧ (i a).val < win1_7.index t a * S1x256.size a + S1x256.size a := by
  show i ∈ ((View.whole main_v16_2).slice (win1_7.rect t)).set ↔ _
  rw [View.set_slice_whole, Rect.mem_set_unit]
  exact Iff.rfl

/-- Row r lies in the block with number r / 2000. -/
theorem hidden_cover (i : S20000x256.Idx) : ∃ t : Fin cfg1.N, (cfg1.win 5).flush t = true ∧ i ∈ ((cfg1.win 5).blk t).view.set := by
  have h0 : (i 0).val < 20000 := (i 0).isLt
  have h1 : (i 1).val < 256 := (i 1).isLt
  obtain ⟨t, ht⟩ : ∃ t : Fin cfg1.N, t.val = (i 0).val / 2000 :=
    ⟨⟨(i 0).val / 2000, lt_of_lt_of_eq (by omega : (i 0).val / 2000 < 10) N_1.symm⟩, rfl⟩
  obtain ⟨-, -, -, -, -, -, -, -, -, -, e0, e1, -⟩ := index_facts t
  refine ⟨t, flush1_5 t, ?_⟩
  rw [hidden_mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- The last point's write-back covers the row. -/
theorem sum_cover (i : S1x256.Idx) : ∃ t : Fin cfg1.N, (cfg1.win 6).flush t = true ∧ i ∈ ((cfg1.win 6).blk t).view.set := by
  have h0 : (i 0).val < 1 := (i 0).isLt
  have h1 : (i 1).val < 256 := (i 1).isLt
  obtain ⟨t, ht⟩ : ∃ t : Fin cfg1.N, t.val = 9 := ⟨⟨9, lt_of_lt_of_eq (by norm_num : 9 < 10) N_1.symm⟩, rfl⟩
  obtain ⟨-, -, -, -, -, -, -, -, -, -, -, -, e0, e1, -⟩ := index_facts t
  refine ⟨t, (flush1_6 t).mpr (by rw [ht]), ?_⟩
  rw [sum_mem_blk]
  intro a
  match a with
  | ⟨0, _⟩ => show win1_6.index t (0 : Fin 2) * 1 ≤ (i 0).val ∧ (i 0).val < win1_6.index t (0 : Fin 2) * 1 + 1; omega
  | ⟨1, _⟩ => show win1_6.index t (1 : Fin 2) * 256 ≤ (i 1).val ∧ (i 1).val < win1_6.index t (1 : Fin 2) * 256 + 256; omega

theorem sumsq_cover (i : S1x256.Idx) : ∃ t : Fin cfg1.N, (cfg1.win 7).flush t = true ∧ i ∈ ((cfg1.win 7).blk t).view.set := by
  have h0 : (i 0).val < 1 := (i 0).isLt
  have h1 : (i 1).val < 256 := (i 1).isLt
  obtain ⟨t, ht⟩ : ∃ t : Fin cfg1.N, t.val = 9 := ⟨⟨9, lt_of_lt_of_eq (by norm_num : 9 < 10) N_1.symm⟩, rfl⟩
  obtain ⟨-, -, -, -, -, -, -, -, -, -, -, -, -, -, e0, e1⟩ := index_facts t
  refine ⟨t, (flush1_7 t).mpr (by rw [ht]), ?_⟩
  rw [sumsq_mem_blk]
  intro a
  match a with
  | ⟨0, _⟩ => show win1_7.index t (0 : Fin 2) * 1 ≤ (i 0).val ∧ (i 0).val < win1_7.index t (0 : Fin 2) * 1 + 1; omega
  | ⟨1, _⟩ => show win1_7.index t (1 : Fin 2) * 256 ≤ (i 1).val ∧ (i 1).val < win1_7.index t (1 : Fin 2) * 256 + 256; omega

section Region

variable (V : (c : Dev nD) → (b : Ref sig .tc) → Buf (Elt Ideal) ((c : Thread nD τ).loc b)) (c : Dev nD)

/-- The region leaves the hidden values of all nodes in its first output array, -/
theorem hidden_value : (dat1 (F := Ideal) V c).arrAt 5 cfg1.N = hiddenOf V c :=
  (dat1 V c).arrAt_eq_of_cover 5 (hiddenOf V c) (fun t _ => hidden_flushed V c t) hidden_cover

/-- their column sums in the second, -/
theorem sum_value : (dat1 (F := Ideal) V c).arrAt 6 cfg1.N = sumRow V c :=
  (dat1 V c).arrAt_eq_of_cover 6 (sumRow V c) (sum_flushed V c) sum_cover

/-- and the column sums of their squares in the third. -/
theorem sumsq_value : (dat1 (F := Ideal) V c).arrAt 7 cfg1.N = sumSqRow V c :=
  (dat1 V c).arrAt_eq_of_cover 7 (sumSqRow V c) (sumsq_flushed V c) sumsq_cover

end Region

end Cert.KernelIdeal.NodeRegion

end
-- ==== Proof.FinalRegion.lean ====
/-
  The last region of the graph layer: the normalisation and the residual branch.

  The nodes are cut into ten blocks of 2000 rows. For the block with number t, row p of the block is node
  2000·t + p. Each block's result at (p, c) is
  (h[p,c] − μ[c]) · rsqrt (v[c] + ε) · γ[c] + β[c] + Σ_k x[p,k] · w[k,c],
  where μ, v, γ, β are single rows shared by all the blocks and w is the whole 256 by 256 matrix. The ten
  blocks tile the 20000 rows, so the array written is the layer's result at every node and channel.
-/
import proofs.«169426_j11020886081778_1_alg».proof.Proof.Spec
import proofs.«169426_j11020886081778_1_alg».proof.Proof.Gen.KernelIdeal.Frame
import Idealize.ShloMosaic.Lib.Pipeline.Value
import Idealize.ShloMosaic.Lib.ValueLayout
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.FinalRegion

open Cert.KernelIdeal Cert.KernelIdeal.Gen Cert.GraphLayer

/-! ## One block's arithmetic at an entry -/

/-- A single row spread over the 2000 rows of a block reads, at (p, q), the row at q. -/
theorem row_apply (v : FVec Ideal S1x256 .f32) (p : Fin 2000) (q : Fin 256) :
    broadcastTo S2000x256 v broadcasts_S1x256_S2000x256 (ix2 p q) = v (ix2 (0 : Fin 1) q) :=
  broadcastTo_1b_ab_apply v broadcasts_S1x256_S2000x256 p q

theorem lhs_row (i : S2000x256.Idx) (κ : dot_S2000x256_S256x256_S2000x256_1_0_0_1_n_n.contr.Idx) :
    (dot_S2000x256_S256x256_S2000x256_1_0_0_1_n_n.lhsIdx i κ 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_contr (i : S2000x256.Idx) (κ : dot_S2000x256_S256x256_S2000x256_1_0_0_1_n_n.contr.Idx) :
    (dot_S2000x256_S256x256_S2000x256_1_0_0_1_n_n.lhsIdx i κ 1).val = (κ ⟨0, by decide⟩).val :=
  dot_S2000x256_S256x256_S2000x256_1_0_0_1_n_n.lhsIdx_val_of_single rfl i κ
theorem rhs_contr (i : S2000x256.Idx) (κ : dot_S2000x256_S256x256_S2000x256_1_0_0_1_n_n.contr.Idx) :
    (dot_S2000x256_S256x256_S2000x256_1_0_0_1_n_n.rhsIdx i κ 0).val = (κ ⟨0, by decide⟩).val :=
  dot_S2000x256_S256x256_S2000x256_1_0_0_1_n_n.rhsIdx_val_of_single rfl i κ
theorem rhs_col (i : S2000x256.Idx) (κ : dot_S2000x256_S256x256_S2000x256_1_0_0_1_n_n.contr.Idx) :
    (dot_S2000x256_S256x256_S2000x256_1_0_0_1_n_n.rhsIdx i κ 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The block's product with the square matrix, started from zero, is the sum over the 256 shared coordinates. -/
theorem matmul_block_apply (x : FVec Ideal S2000x256 .bf16) (w : FVec Ideal S256x256 .bf16) (p : Fin 2000) (q : Fin 256) :
    matmul dot_S2000x256_S256x256_S2000x256_1_0_0_1_n_n none x w (constant (F := Ideal) S2000x256 .f32 0x00000000#32) (ix2 p q)
      = ∑ k : Fin 256, x (ix2 p k) * w (ix2 k q) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs_row _ _
    | ⟨1, _⟩ => exact (lhs_contr _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs_contr _ _).trans hk
    | ⟨1, _⟩ => exact rhs_col _ _)
  rw [el, er]

/-- The block's result at (p, q), from the seven blocks the body loads. -/
theorem payload_apply (h : FVec Ideal S2000x256 .f32) (mu va ga be : FVec Ideal S1x256 .f32) (x : FVec Ideal S2000x256 .f32)
    (w : FVec Ideal S256x256 .f32) (p : Fin 2000) (q : Fin 256) :
    k2_pay1 (F := Ideal) h mu va ga be x w (ix2 p q)
      = (h (ix2 p q) - mu (ix2 (0 : Fin 1) q)) * Ideal.rsqrt (va (ix2 (0 : Fin 1) q) + eps) * ga (ix2 (0 : Fin 1) q)
          + be (ix2 (0 : Fin 1) q) + ∑ k : Fin 256, x (ix2 p k) * w (ix2 k q) := by
  unfold k2_pay1
  simp only [shapeCast_self]
  rw [addf_apply, addf_apply, mulf_apply, mulf_apply, subf_apply, row_apply, row_apply, row_apply, row_apply, matmul_block_apply]
  rfl

/-! ## From the ten blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The block numbers, over the ten points: the three windows over the nodes are at block t on the rows and
    block 0 on the channels; the four rows and the square matrix are always their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

theorem lt_ten (t : Fin cfg2.N) : t.val < 10 := lt_of_lt_of_eq t.isLt N_2

/-- Row p of block t is node 2000·t + p. -/
def node (t : Fin cfg2.N) (p : Fin 2000) : Fin 20000 := ⟨2000 * t.val + p.val, by have := lt_ten t; have := p.isLt; omega⟩

theorem node_val (t : Fin cfg2.N) (p : Fin 2000) : (node t p).val = 2000 * t.val + p.val := rfl

/-- The hidden values' block at point t holds the rows 2000·t … 2000·t + 1999. -/
theorem blk_hidden (c : Dev nD) (t : Fin cfg2.N) (p : Fin 2000) (q : Fin 256) :
    iblk2 V c 0 t (ix2 p q) = V c main_v16_0 (ix2 (node t p) q) := by
  obtain ⟨e0, e1, -⟩ := idx_facts t
  unfold iblk2
  rw [View.read_apply]
  show V c main_v16_0 _ = V c main_v16_0 _
  congr 1
  funext a
  apply Fin.ext
  match a with
  | ⟨0, _⟩ => show win2_0.index t (0 : Fin 2) * 2000 + 1 * p.val = 2000 * t.val + p.val; omega
  | ⟨1, _⟩ => show win2_0.index t (1 : Fin 2) * 256 + 1 * q.val = q.val; omega

/-- The node features' block likewise. -/
theorem blk_x (c : Dev nD) (t : Fin cfg2.N) (p : Fin 2000) (k : Fin 256) :
    iblk2 V c 1 t (ix2 p k) = V c main_arg0 (ix2 (node t p) k) := by
  obtain ⟨-, -, e0, e1, -⟩ := idx_facts t
  unfold iblk2
  rw [View.read_apply]
  show V c main_arg0 _ = V c main_arg0 _
  congr 1
  funext a
  apply Fin.ext
  match a with
  | ⟨0, _⟩ => show win2_1.index t (0 : Fin 2) * 2000 + 1 * p.val = 2000 * t.val + p.val; omega
  | ⟨1, _⟩ => show win2_1.index t (1 : Fin 2) * 256 + 1 * k.val = k.val; omega

/-- The mean row's block is the row. -/
theorem blk_mean (c : Dev nD) (t : Fin cfg2.N) (q : Fin 256) :
    iblk2 V c 2 t (ix2 (0 : Fin 1) q) = V c main_v18 (ix2 (0 : Fin 1) q) := by
  obtain ⟨-, -, -, -, e0, e1, -⟩ := idx_facts t
  unfold iblk2
  rw [View.read_apply]
  show V c main_v18 _ = V c main_v18 _
  congr 1
  funext a
  apply Fin.ext
  match a with
  | ⟨0, _⟩ => show win2_2.index t (0 : Fin 2) * 1 + 1 * 0 = 0; omega
  | ⟨1, _⟩ => show win2_2.index t (1 : Fin 2) * 256 + 1 * q.val = q.val; omega

/-- The variance row's block is the row. -/
theorem blk_var (c : Dev nD) (t : Fin cfg2.N) (q : Fin 256) :
    iblk2 V c 3 t (ix2 (0 : Fin 1) q) = V c main_v22 (ix2 (0 : Fin 1) q) := by
  obtain ⟨-, -, -, -, -, -, e0, e1, -⟩ := idx_facts t
  unfold iblk2
  rw [View.read_apply]
  show V c main_v22 _ = V c main_v22 _
  congr 1
  funext a
  apply Fin.ext
  match a with
  | ⟨0, _⟩ => show win2_3.index t (0 : Fin 2) * 1 + 1 * 0 = 0; omega
  | ⟨1, _⟩ => show win2_3.index t (1 : Fin 2) * 256 + 1 * q.val = q.val; omega

/-- The scale row's block is the row. -/
theorem blk_gamma (c : Dev nD) (t : Fin cfg2.N) (q : Fin 256) :
    iblk2 V c 4 t (ix2 (0 : Fin 1) q) = V c main_v23 (ix2 (0 : Fin 1) q) := by
  obtain ⟨-, -, -, -, -, -, -, -, e0, e1, -⟩ := idx_facts t
  unfold iblk2
  rw [View.read_apply]
  show V c main_v23 _ = V c main_v23 _
  congr 1
  funext a
  apply Fin.ext
  match a with
  | ⟨0, _⟩ => show win2_4.index t (0 : Fin 2) * 1 + 1 * 0 = 0; omega
  | ⟨1, _⟩ => show win2_4.index t (1 : Fin 2) * 256 + 1 * q.val = q.val; omega

/-- The shift row's block is the row. -/
theorem blk_beta (c : Dev nD) (t : Fin cfg2.N) (q : Fin 256) :
    iblk2 V c 5 t (ix2 (0 : Fin 1) q) = V c main_v24 (ix2 (0 : Fin 1) q) := by
  obtain ⟨-, -, -, -, -, -, -, -, -, -, e0, e1, -⟩ := idx_facts t
  unfold iblk2
  rw [View.read_apply]
  show V c main_v24 _ = V c main_v24 _
  congr 1
  funext a
  apply Fin.ext
  match a with
  | ⟨0, _⟩ => show win2_5.index t (0 : Fin 2) * 1 + 1 * 0 = 0; omega
  | ⟨1, _⟩ => show win2_5.index t (1 : Fin 2) * 256 + 1 * q.val = q.val; omega

/-- The square matrix's block is the matrix. -/
theorem blk_w (c : Dev nD) (t : Fin cfg2.N) (k q : Fin 256) :
    iblk2 V c 6 t (ix2 k q) = V c main_arg9 (ix2 k q) := by
  obtain ⟨-, -, -, -, -, -, -, -, -, -, -, -, e0, e1, -⟩ := idx_facts t
  unfold iblk2
  rw [View.read_apply]
  show V c main_arg9 _ = V c main_arg9 _
  congr 1
  funext a
  apply Fin.ext
  match a with
  | ⟨0, _⟩ => show win2_6.index t (0 : Fin 2) * 256 + 1 * k.val = k.val; omega
  | ⟨1, _⟩ => show win2_6.index t (1 : Fin 2) * 256 + 1 * q.val = q.val; omega

/-- Entry (p, q) of the result's block at point t sits at node 2000·t + p, channel q. -/
theorem blk_out_emb (t : Fin cfg2.N) (p : Fin 2000) (q : Fin 256) :
    ((cfg2.win 7).blk t).view.emb (ix2 p q) = (ix2 (node t p) q : S20000x256.Idx) := by
  obtain ⟨-, -, -, -, -, -, -, -, -, -, -, -, -, -, e0, e1⟩ := idx_facts t
  funext a
  apply Fin.ext
  match a with
  | ⟨0, _⟩ => show win2_7.index t (0 : Fin 2) * 2000 + 1 * p.val = 2000 * t.val + p.val; omega
  | ⟨1, _⟩ => show win2_7.index t (1 : Fin 2) * 256 + 1 * q.val = q.val; omega

/-- The layer's result over the arrays the region finds. -/
abbrev G (c : Dev nD) : Buf (Elt Ideal) ((c : Thread nD τ).loc main_v25) :=
  resultArr (V c main_v16_0) (fun q => V c main_v18 (ix2 0 q)) (fun q => V c main_v22 (ix2 0 q))
    (fun j => V c main_v23 (ix2 0 (j 0))) (fun j => V c main_v24 (ix2 0 (j 0))) (V c main_arg0) (V c main_arg9)

/-- What point t writes back is block t of the layer's result. -/
theorem flushed_eq (c : Dev nD) (t : Fin cfg2.N) :
    (dat2 (F := Ideal) V c).flushed 7 t = ((cfg2.win 7).blk t).view.read (Elt Ideal) (G V c) := by
  show (cfg2.win 7).cut (grid2.coords t) ((dat2 V c).after 7 t) = _
  rw [after2_7]
  unfold out2_7
  rw [View.canon_unit_zero hz]
  simp only [View.ld_unit_zero (S := S2000x256) hz, View.ld_unit_zero (S := S1x256) hz, View.ld_unit_zero (S := S256x256) hz]
  funext j
  obtain ⟨p, q, rfl⟩ : ∃ (p : Fin 2000) (q : Fin 256), j = ix2 p q := ⟨j 0, j 1, eq_ix2 j⟩
  rw [View.read_apply, blk_out_emb]
  refine (payload_apply _ _ _ _ _ _ _ p q).trans ?_
  rw [blk_hidden, blk_mean, blk_var, blk_gamma, blk_beta]
  simp only [blk_x, blk_w]
  rfl

/-- An index of the array is in point t's block iff each coordinate is in the block's range on its axis. -/
theorem mem_blk (t : Fin cfg2.N) (i : S20000x256.Idx) :
    i ∈ ((cfg2.win 7).blk t).view.set ↔ ∀ a : Fin 2, win2_7.index t a * S2000x256.size a ≤ (i a).val ∧ (i a).val < win2_7.index t a * S2000x256.size a + S2000x256.size a := by
  show i ∈ ((View.whole main_v25).slice (win2_7.rect t)).set ↔ _
  rw [View.set_slice_whole, Rect.mem_set_unit]
  exact Iff.rfl

/-- Node r lies in the block with number r / 2000: the ten blocks cover the array. -/
theorem cover (i : S20000x256.Idx) : ∃ t : Fin cfg2.N, (cfg2.win 7).flush t = true ∧ i ∈ ((cfg2.win 7).blk t).view.set := by
  have h0 : (i 0).val < 20000 := (i 0).isLt
  have h1 : (i 1).val < 256 := (i 1).isLt
  obtain ⟨t, ht⟩ : ∃ t : Fin cfg2.N, t.val = (i 0).val / 2000 :=
    ⟨⟨(i 0).val / 2000, lt_of_lt_of_eq (by omega : (i 0).val / 2000 < 10) N_2.symm⟩, rfl⟩
  obtain ⟨-, -, -, -, -, -, -, -, -, -, -, -, -, -, e0, e1⟩ := idx_facts t
  refine ⟨t, flush2_7 t, ?_⟩
  rw [mem_blk]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 256 ≤ (i 1).val ∧ (i 1).val < win2_7.index t (1 : Fin 2) * 256 + 256; omega

/-- The array the region leaves is the layer's result of the arrays it found. -/
theorem value (c : Dev nD) :
    (dat2 (F := Ideal) V c).arrAt 7 cfg2.N
      = resultArr (V c main_v16_0) (fun q => V c main_v18 (ix2 0 q)) (fun q => V c main_v22 (ix2 0 q))
          (fun j => V c main_v23 (ix2 0 (j 0))) (fun j => V c main_v24 (ix2 0 (j 0))) (V c main_arg0) (V c main_arg9) :=
  (dat2 V c).arrAt_eq_of_cover 7 (G V c) (fun t _ => flushed_eq V c t) cover

end Cert.KernelIdeal.FinalRegion

end
-- ==== Proof.RefValue.lean ====
/-
  The reference program's stages are the graph layer's functions, read on the extended reals.

  Each stage of the reference is read at an index from its operands: a product of two arrays is the product of the
  entries, a matrix product is the sum over the contracted axis, a column sum is its initial value 0 plus the sum over
  the rows. The gathered source features and the per-node message sums are stages whose entries depend on the values
  of the edge list; they stay opaque arrays here, and everything downstream is a function of them.
-/
import proofs.«169426_j11020886081778_1_alg».proof.Proof.Spec
import proofs.«169426_j11020886081778_1_alg».proof.Proof.Gen.ReferenceIdeal.Read

noncomputable section

open scoped BigOperators

namespace Cert.ReferenceIdeal.RefValue

open Cert.ReferenceIdeal Cert.ReferenceIdeal.Read Cert.GraphLayer Idealize.ShloMosaic Idealize.ShloMosaic.ValueIdx

/-- The message array: entry `(e, c)` is the gathered feature `xg[e,c]` times `Σ_k ea[e,k]·we[k,c]`. -/
theorem message_stage (x0 : (⟨S20000x256, .f32⟩ : BufTy).Contents (Elt Ideal)) (x1 : (⟨S2x320000, .i32⟩ : BufTy).Contents (Elt Ideal))
    (x2 : (⟨S320000x64, .f32⟩ : BufTy).Contents (Elt Ideal)) (x3 : (⟨S64x256, .f32⟩ : BufTy).Contents (Elt Ideal)) :
    val_main_v12 (F := Ideal) x0 x1 x2 x3 = messageArr (val_main_v11 (F := Ideal) x0 x1) x2 x3 := by
  funext i
  obtain ⟨e, c, rfl⟩ : ∃ (e : Fin 320000) (c : Fin 256), i = ix2 e c := ⟨i 0, i 1, eq_ix2 i⟩
  have hl : ∀ k : Fin 64, lidx_main_v4 (ix2 e c) k = ix2 e k := fun k =>
    funext fun a => Fin.ext (by match a with | ⟨0, _⟩ => rfl | ⟨1, _⟩ => rfl)
  have hr : ∀ k : Fin 64, ridx_main_v4 (ix2 e c) k = ix2 k c := fun k =>
    funext fun a => Fin.ext (by match a with | ⟨0, _⟩ => rfl | ⟨1, _⟩ => rfl)
  rw [val_main_v12_apply, val_main_v4_apply, messageArr_ix2]
  generalize val_main_v11 (F := Ideal) x0 x1 = xg
  simp only [hl, hr, Ideal.mulf_def, message, proj]

/-- The hidden values: entry `(r, c)` is `max (Σ_k agg[r,k]·wrel[k,c] + b[c] + Σ_k x[r,k]·wroot[k,c]) 0`, with `agg` the
    per-node message sums. -/
theorem hidden_stage (x0 : (⟨S20000x256, .f32⟩ : BufTy).Contents (Elt Ideal)) (x1 : (⟨S2x320000, .i32⟩ : BufTy).Contents (Elt Ideal))
    (x2 : (⟨S320000x64, .f32⟩ : BufTy).Contents (Elt Ideal)) (x3 : (⟨S64x256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) :
    val_main_v22 (F := Ideal) x0 x1 x2 x3 x4 x5 x6 = hiddenArr (val_main_v15 (F := Ideal) x0 x1 x2 x3) x0 x4 x5 x6 := by
  funext i
  obtain ⟨r, c, rfl⟩ : ∃ (r : Fin 20000) (c : Fin 256), i = ix2 r c := ⟨i 0, i 1, eq_ix2 i⟩
  have hl16 : ∀ k : Fin 256, lidx_main_v16 (ix2 r c) k = ix2 r k := fun k =>
    funext fun a => Fin.ext (by match a with | ⟨0, _⟩ => rfl | ⟨1, _⟩ => rfl)
  have hr16 : ∀ k : Fin 256, ridx_main_v16 (ix2 r c) k = ix2 k c := fun k =>
    funext fun a => Fin.ext (by match a with | ⟨0, _⟩ => rfl | ⟨1, _⟩ => rfl)
  have hl20 : ∀ k : Fin 256, lidx_main_v20 (ix2 r c) k = ix2 r k := fun k =>
    funext fun a => Fin.ext (by match a with | ⟨0, _⟩ => rfl | ⟨1, _⟩ => rfl)
  have hr20 : ∀ k : Fin 256, ridx_main_v20 (ix2 r c) k = ix2 k c := fun k =>
    funext fun a => Fin.ext (by match a with | ⟨0, _⟩ => rfl | ⟨1, _⟩ => rfl)
  have hb : idx_main_v17 (idx_main_v18 (ix2 r c)) = ix1 c :=
    funext fun a => Fin.ext (by match a with | ⟨0, _⟩ => rfl)
  rw [val_main_v22_apply, val_main_v21_apply, val_main_v19_apply, val_main_v16_apply, val_main_v18_apply,
    val_main_v17_apply, val_main_v20_apply, val_main_call0_v0_apply, val_main_call0_cst_apply, hiddenArr_ix2]
  generalize val_main_v15 (F := Ideal) x0 x1 x2 x3 = agg
  simp only [hl16, hr16, hl20, hr20, hb, Ideal.addf_def, Ideal.maximumf_def, Ideal.ofBits_def, Ideal.ofBits_zero_f32,
    Cert.GraphLayer.hidden, lin]

/-- A channel's mean: the column sum of the hidden values, started from 0, over the node count. -/
theorem mean_stage (x0 : (⟨S20000x256, .f32⟩ : BufTy).Contents (Elt Ideal)) (x1 : (⟨S2x320000, .i32⟩ : BufTy).Contents (Elt Ideal))
    (x2 : (⟨S320000x64, .f32⟩ : BufTy).Contents (Elt Ideal)) (x3 : (⟨S64x256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (c : Fin 256) :
    val_main_v25 (F := Ideal) x0 x1 x2 x3 x4 x5 x6 (ix1 c) =
      mean (hiddenArr (val_main_v15 (F := Ideal) x0 x1 x2 x3) x0 x4 x5 x6) c := by
  have hk : ∀ k : Fin 20000, idx_main_v23 (ix1 c) k = ix2 k c := fun k =>
    funext fun a => Fin.ext (by match a with | ⟨0, _⟩ => rfl | ⟨1, _⟩ => rfl)
  rw [val_main_v25_apply, val_main_v23_apply, val_main_v24_apply, val_main_cst_2_apply, val_main_cst_1_apply, hidden_stage]
  generalize hiddenArr (val_main_v15 (F := Ideal) x0 x1 x2 x3) x0 x4 x5 x6 = h
  simp only [hk, Ideal.hostDivf_def, Ideal.ofBits_def, Ideal.ofBits_zero_f32, zero_add, mean, colSum, Cert.GraphLayer.count]

/-- A channel's variance: the column sum of the squared deviations from the mean, started from 0, over the node count. -/
theorem var_stage (x0 : (⟨S20000x256, .f32⟩ : BufTy).Contents (Elt Ideal)) (x1 : (⟨S2x320000, .i32⟩ : BufTy).Contents (Elt Ideal))
    (x2 : (⟨S320000x64, .f32⟩ : BufTy).Contents (Elt Ideal)) (x3 : (⟨S64x256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (c : Fin 256) :
    val_main_v32 (F := Ideal) x0 x1 x2 x3 x4 x5 x6 (ix1 c) =
      varCentered (hiddenArr (val_main_v15 (F := Ideal) x0 x1 x2 x3) x0 x4 x5 x6) c := by
  have hk : ∀ k : Fin 20000, idx_main_v30 (ix1 c) k = ix2 k c := fun k =>
    funext fun a => Fin.ext (by match a with | ⟨0, _⟩ => rfl | ⟨1, _⟩ => rfl)
  have hm : ∀ k : Fin 20000, idx_main_v26 (idx_main_v27 (ix2 k c)) = ix1 c := fun k =>
    funext fun a => Fin.ext (by match a with | ⟨0, _⟩ => rfl)
  rw [val_main_v32_apply, val_main_v30_apply, val_main_v31_apply, val_main_cst_4_apply, val_main_cst_3_apply]
  simp only [hk, val_main_v29_apply, val_main_v28_apply, val_main_v27_apply, val_main_v26_apply, hm, mean_stage, hidden_stage]
  generalize hiddenArr (val_main_v15 (F := Ideal) x0 x1 x2 x3) x0 x4 x5 x6 = h
  simp only [Ideal.hostDivf_def, Ideal.mulf_def, Ideal.subf_def, Ideal.ofBits_def, Ideal.ofBits_zero_f32, zero_add,
    varCentered, Cert.GraphLayer.count]

/-- The result: entry `(r, c)` is the hidden value less its channel's mean, times `rsqrt (variance + ε)`, times `γ[c]`,
    plus `β[c]`, plus the residual branch `Σ_k x[r,k]·wres[k,c]`. -/
theorem result_stage (x0 : (⟨S20000x256, .f32⟩ : BufTy).Contents (Elt Ideal)) (x1 : (⟨S2x320000, .i32⟩ : BufTy).Contents (Elt Ideal))
    (x2 : (⟨S320000x64, .f32⟩ : BufTy).Contents (Elt Ideal)) (x3 : (⟨S64x256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal))
    (x7 x8 : (⟨S256, .f32⟩ : BufTy).Contents (Elt Ideal)) (x9 : (⟨S256x256, .f32⟩ : BufTy).Contents (Elt Ideal)) :
    val_main_v49 (F := Ideal) x0 x1 x2 x3 x4 x5 x6 x7 x8 x9 =
      layerCentered (val_main_v15 (F := Ideal) x0 x1 x2 x3) x0 x4 x5 x6 x7 x8 x9 := by
  funext i
  obtain ⟨r, c, rfl⟩ : ∃ (r : Fin 20000) (c : Fin 256), i = ix2 r c := ⟨i 0, i 1, eq_ix2 i⟩
  have hμ : idx_main_v33 (idx_main_v34 (ix2 r c)) = ix1 c :=
    funext fun a => Fin.ext (by match a with | ⟨0, _⟩ => rfl)
  have hv : idx_main_v39 (idx_main_v40 (ix2 r c)) = ix1 c :=
    funext fun a => Fin.ext (by match a with | ⟨0, _⟩ => rfl)
  have hγ : idx_main_v42 (idx_main_v43 (ix2 r c)) = ix1 c :=
    funext fun a => Fin.ext (by match a with | ⟨0, _⟩ => rfl)
  have hβ : idx_main_v45 (idx_main_v46 (ix2 r c)) = ix1 c :=
    funext fun a => Fin.ext (by match a with | ⟨0, _⟩ => rfl)
  have hl : ∀ k : Fin 256, lidx_main_v48 (ix2 r c) k = ix2 r k := fun k =>
    funext fun a => Fin.ext (by match a with | ⟨0, _⟩ => rfl | ⟨1, _⟩ => rfl)
  have hr : ∀ k : Fin 256, ridx_main_v48 (ix2 r c) k = ix2 k c := fun k =>
    funext fun a => Fin.ext (by match a with | ⟨0, _⟩ => rfl | ⟨1, _⟩ => rfl)
  rw [val_main_v49_apply, val_main_v47_apply, val_main_v44_apply, val_main_v41_apply, val_main_v35_apply,
    val_main_v34_apply, val_main_v33_apply, val_main_v40_apply, val_main_v39_apply, val_main_v38_apply,
    val_main_v37_apply, val_main_v36_apply, val_main_cst_5_apply, val_main_v43_apply, val_main_v42_apply,
    val_main_v46_apply, val_main_v45_apply, val_main_v48_apply, hμ, hv, hγ, hβ, mean_stage, var_stage, hidden_stage]
  unfold layerCentered
  rw [resultArr_ix2]
  generalize hiddenArr (val_main_v15 (F := Ideal) x0 x1 x2 x3) x0 x4 x5 x6 = h
  simp only [hl, hr, Ideal.addf_def, Ideal.mulf_def, Ideal.subf_def, Ideal.hostUnary_rsqrt_def, Ideal.ofBits_def,
    result, lin, Cert.GraphLayer.eps]

end Cert.ReferenceIdeal.RefValue

end
-- ==== Proof.KernelValue.lean ====
/-
  The idealized kernel's result, read through the program.

  The program is: host operations (the edge index rows, the gather of the source features), the edge region (the
  messages), host operations (the scatter-add of the messages per destination node, the bias as a row), the node
  region (the hidden values and, per channel, their sum and the sum of their squares over the nodes), host operations
  (the mean = sum / 20000, the variance = sum of squares / 20000 − mean², the scale and shift as rows), the final region
  (normalise, scale, shift, add the residual product). Each boundary's contents are read off the one before:
  a host stretch applies its operations, a region leaves in its output arrays what its value lemma says. The gather,
  the index arithmetic and the scatter-add are the reference's own operations on the same arguments, so those stages
  are stated as the reference's stage functions of the launch memory.
-/
import proofs.«169426_j11020886081778_1_alg».proof.Proof.Spec
import proofs.«169426_j11020886081778_1_alg».proof.Proof.Gen.KernelIdeal.Frame
import proofs.«169426_j11020886081778_1_alg».proof.Proof.Gen.ReferenceIdeal.Read
import proofs.«169426_j11020886081778_1_alg».proof.Proof.EdgeRegion
import proofs.«169426_j11020886081778_1_alg».proof.Proof.NodeRegion
import proofs.«169426_j11020886081778_1_alg».proof.Proof.FinalRegion
import proofs.«169426_j11020886081778_1_alg».proof.Proof.RefValue
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.StableHlo
open scoped BigOperators

namespace Cert.KernelIdeal.Stitch

open Cert.KernelIdeal Cert.KernelIdeal.Gen Idealize.ShloMosaic.ValueIdx

variable (m : (ℓ : Loc nD τ sig) → Buf (Elt Ideal) ℓ) (ρ : Dev nD → PrngReg) (c : Dev nD)

/-! ## Before the first region: the gathered source features -/

/-- The first region finds the source features gathered as the reference gathers them. -/
theorem gathered : W1 (F := Ideal) m ρ c (Proc.devRef .tc main_v10) = Cert.ReferenceIdeal.Read.val_main_v11 (F := Ideal) (m ((c : Thread nD τ).loc main_arg0)) (m ((c : Thread nD τ).loc main_arg1)) := by
  show StableHlo.after hostOps0 (W0 m ρ c) (Proc.devRef .tc main_v10) = _
  after_results
  rfl

theorem attr_at_first : W1 (F := Ideal) m ρ c (Proc.devRef .tc main_arg2) = (m ((c : Thread nD τ).loc main_arg2)) := by
  show StableHlo.after hostOps0 (W0 m ρ c) (Proc.devRef .tc main_arg2) = _
  after_results

theorem proj_at_first : W1 (F := Ideal) m ρ c (Proc.devRef .tc main_arg3) = (m ((c : Thread nD τ).loc main_arg3)) := by
  show StableHlo.after hostOps0 (W0 m ρ c) (Proc.devRef .tc main_arg3) = _
  after_results

/-- The destination indices the scatter reads, as the reference computes them. -/
theorem dst_at_first : W1 (F := Ideal) m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results
  rfl

/-! ## After the first region: the messages -/

/-- The first region leaves the messages, the reference's product of the gathered features and the projected attributes. -/
theorem messages : W2 (F := Ideal) m ρ c (Proc.devRef .tc main_v11)
    = Cert.ReferenceIdeal.Read.val_main_v12 (F := Ideal) (m ((c : Thread nD τ).loc main_arg0)) (m ((c : Thread nD τ).loc main_arg1)) (m ((c : Thread nD τ).loc main_arg2)) (m ((c : Thread nD τ).loc main_arg3)) := by
  refine (W2_arr m ρ c 3).trans ((Cert.KernelIdeal.EdgeRegion.value (V1 m ρ) c).trans ?_)
  rw [Cert.ReferenceIdeal.RefValue.message_stage]
  show Cert.GraphLayer.messageArr (W1 m ρ c (Proc.devRef .tc main_v10)) (W1 m ρ c (Proc.devRef .tc main_arg2)) (W1 m ρ c (Proc.devRef .tc main_arg3)) = _
  rw [gathered, attr_at_first, proj_at_first]

/-! ## The arguments at the boundaries: no host operation and no region writes one -/

theorem arg0_at_first : W1 (F := Ideal) m ρ c (Proc.devRef .tc main_arg0) = (m ((c : Thread nD τ).loc main_arg0)) := by
  show StableHlo.after hostOps0 (W0 m ρ c) (Proc.devRef .tc main_arg0) = _
  after_results
theorem arg4_at_first : W1 (F := Ideal) m ρ c (Proc.devRef .tc main_arg4) = (m ((c : Thread nD τ).loc main_arg4)) := by
  show StableHlo.after hostOps0 (W0 m ρ c) (Proc.devRef .tc main_arg4) = _
  after_results
theorem arg5_at_first : W1 (F := Ideal) m ρ c (Proc.devRef .tc main_arg5) = (m ((c : Thread nD τ).loc main_arg5)) := by
  show StableHlo.after hostOps0 (W0 m ρ c) (Proc.devRef .tc main_arg5) = _
  after_results
theorem arg6_at_first : W1 (F := Ideal) m ρ c (Proc.devRef .tc main_arg6) = (m ((c : Thread nD τ).loc main_arg6)) := by
  show StableHlo.after hostOps0 (W0 m ρ c) (Proc.devRef .tc main_arg6) = _
  after_results
theorem arg7_at_first : W1 (F := Ideal) m ρ c (Proc.devRef .tc main_arg7) = (m ((c : Thread nD τ).loc main_arg7)) := by
  show StableHlo.after hostOps0 (W0 m ρ c) (Proc.devRef .tc main_arg7) = _
  after_results
theorem arg8_at_first : W1 (F := Ideal) m ρ c (Proc.devRef .tc main_arg8) = (m ((c : Thread nD τ).loc main_arg8)) := by
  show StableHlo.after hostOps0 (W0 m ρ c) (Proc.devRef .tc main_arg8) = _
  after_results
theorem arg9_at_first : W1 (F := Ideal) m ρ c (Proc.devRef .tc main_arg9) = (m ((c : Thread nD τ).loc main_arg9)) := by
  show StableHlo.after hostOps0 (W0 m ρ c) (Proc.devRef .tc main_arg9) = _
  after_results

theorem arg0_after_first : W2 (F := Ideal) m ρ c (Proc.devRef .tc main_arg0) = (m ((c : Thread nD τ).loc main_arg0)) :=
  (W2_of_ne m ρ c main_arg0 (by decide)).trans (arg0_at_first m ρ c)
theorem arg4_after_first : W2 (F := Ideal) m ρ c (Proc.devRef .tc main_arg4) = (m ((c : Thread nD τ).loc main_arg4)) :=
  (W2_of_ne m ρ c main_arg4 (by decide)).trans (arg4_at_first m ρ c)
theorem arg5_after_first : W2 (F := Ideal) m ρ c (Proc.devRef .tc main_arg5) = (m ((c : Thread nD τ).loc main_arg5)) :=
  (W2_of_ne m ρ c main_arg5 (by decide)).trans (arg5_at_first m ρ c)
theorem arg6_after_first : W2 (F := Ideal) m ρ c (Proc.devRef .tc main_arg6) = (m ((c : Thread nD τ).loc main_arg6)) :=
  (W2_of_ne m ρ c main_arg6 (by decide)).trans (arg6_at_first m ρ c)
theorem arg7_after_first : W2 (F := Ideal) m ρ c (Proc.devRef .tc main_arg7) = (m ((c : Thread nD τ).loc main_arg7)) :=
  (W2_of_ne m ρ c main_arg7 (by decide)).trans (arg7_at_first m ρ c)
theorem arg8_after_first : W2 (F := Ideal) m ρ c (Proc.devRef .tc main_arg8) = (m ((c : Thread nD τ).loc main_arg8)) :=
  (W2_of_ne m ρ c main_arg8 (by decide)).trans (arg8_at_first m ρ c)
theorem arg9_after_first : W2 (F := Ideal) m ρ c (Proc.devRef .tc main_arg9) = (m ((c : Thread nD τ).loc main_arg9)) :=
  (W2_of_ne m ρ c main_arg9 (by decide)).trans (arg9_at_first m ρ c)

theorem arg0_at_second : W3 (F := Ideal) m ρ c (Proc.devRef .tc main_arg0) = (m ((c : Thread nD τ).loc main_arg0)) := by
  show StableHlo.after hostOps1 (W2 m ρ c) (Proc.devRef .tc main_arg0) = _
  after_results
  exact arg0_after_first m ρ c
theorem arg4_at_second : W3 (F := Ideal) m ρ c (Proc.devRef .tc main_arg4) = (m ((c : Thread nD τ).loc main_arg4)) := by
  show StableHlo.after hostOps1 (W2 m ρ c) (Proc.devRef .tc main_arg4) = _
  after_results
  exact arg4_after_first m ρ c
theorem arg5_at_second : W3 (F := Ideal) m ρ c (Proc.devRef .tc main_arg5) = (m ((c : Thread nD τ).loc main_arg5)) := by
  show StableHlo.after hostOps1 (W2 m ρ c) (Proc.devRef .tc main_arg5) = _
  after_results
  exact arg5_after_first m ρ c
theorem arg6_at_second : W3 (F := Ideal) m ρ c (Proc.devRef .tc main_arg6) = (m ((c : Thread nD τ).loc main_arg6)) := by
  show StableHlo.after hostOps1 (W2 m ρ c) (Proc.devRef .tc main_arg6) = _
  after_results
  exact arg6_after_first m ρ c
theorem arg7_at_second : W3 (F := Ideal) m ρ c (Proc.devRef .tc main_arg7) = (m ((c : Thread nD τ).loc main_arg7)) := by
  show StableHlo.after hostOps1 (W2 m ρ c) (Proc.devRef .tc main_arg7) = _
  after_results
  exact arg7_after_first m ρ c
theorem arg8_at_second : W3 (F := Ideal) m ρ c (Proc.devRef .tc main_arg8) = (m ((c : Thread nD τ).loc main_arg8)) := by
  show StableHlo.after hostOps1 (W2 m ρ c) (Proc.devRef .tc main_arg8) = _
  after_results
  exact arg8_after_first m ρ c
theorem arg9_at_second : W3 (F := Ideal) m ρ c (Proc.devRef .tc main_arg9) = (m ((c : Thread nD τ).loc main_arg9)) := by
  show StableHlo.after hostOps1 (W2 m ρ c) (Proc.devRef .tc main_arg9) = _
  after_results
  exact arg9_after_first m ρ c

theorem arg0_after_second : W4 (F := Ideal) m ρ c (Proc.devRef .tc main_arg0) = (m ((c : Thread nD τ).loc main_arg0)) :=
  (W4_arr m ρ c 1).trans (((dat1 (V3 m ρ) c).arrAt_in 1 rfl _).trans ((A_eq1 (V3 m ρ) c 1).trans (arg0_at_second m ρ c)))
theorem arg7_after_second : W4 (F := Ideal) m ρ c (Proc.devRef .tc main_arg7) = (m ((c : Thread nD τ).loc main_arg7)) :=
  (W4_of_ne m ρ c main_arg7 (by decide)).trans (arg7_at_second m ρ c)
theorem arg8_after_second : W4 (F := Ideal) m ρ c (Proc.devRef .tc main_arg8) = (m ((c : Thread nD τ).loc main_arg8)) :=
  (W4_of_ne m ρ c main_arg8 (by decide)).trans (arg8_at_second m ρ c)
theorem arg9_after_second : W4 (F := Ideal) m ρ c (Proc.devRef .tc main_arg9) = (m ((c : Thread nD τ).loc main_arg9)) :=
  (W4_of_ne m ρ c main_arg9 (by decide)).trans (arg9_at_second m ρ c)

theorem arg0_at_third : W5 (F := Ideal) m ρ c (Proc.devRef .tc main_arg0) = (m ((c : Thread nD τ).loc main_arg0)) := by
  show StableHlo.after hostOps2 (W4 m ρ c) (Proc.devRef .tc main_arg0) = _
  after_results
  exact arg0_after_second m ρ c
theorem arg9_at_third : W5 (F := Ideal) m ρ c (Proc.devRef .tc main_arg9) = (m ((c : Thread nD τ).loc main_arg9)) := by
  show StableHlo.after hostOps2 (W4 m ρ c) (Proc.devRef .tc main_arg9) = _
  after_results
  exact arg9_after_second m ρ c

/-! ## Before the second region: the per-node message sums and the bias row -/

/-- The per-node sums of the messages, as the reference's scatter-add computes them. -/
def aggOf : Cert.GraphLayer.SNode.Idx → EReal := Cert.ReferenceIdeal.Read.val_main_v15 (F := Ideal) (m ((c : Thread nD τ).loc main_arg0)) (m ((c : Thread nD τ).loc main_arg1)) (m ((c : Thread nD τ).loc main_arg2)) (m ((c : Thread nD τ).loc main_arg3))

/-- The hidden values of all nodes. -/
def hiddenOf : Cert.GraphLayer.SNode.Idx → EReal :=
  Cert.GraphLayer.hiddenArr (aggOf m c) (m ((c : Thread nD τ).loc main_arg0)) (m ((c : Thread nD τ).loc main_arg4)) (m ((c : Thread nD τ).loc main_arg5)) (m ((c : Thread nD τ).loc main_arg6))

theorem agg_at_second : W3 (F := Ideal) m ρ c (Proc.devRef .tc main_v14) = aggOf m c := by
  show StableHlo.after hostOps1 (W2 m ρ c) (Proc.devRef .tc main_v14) = _
  after_results
  rw [show W2 (F := Ideal) m ρ c (Proc.devRef .tc main_v3) = W1 m ρ c (Proc.devRef .tc main_v3) from W2_of_ne m ρ c main_v3 (by decide),
    dst_at_first, messages]
  rfl

/-- The bias, reshaped to a row, read at a channel. -/
theorem bias_row_at (q : Fin 256) : W3 (F := Ideal) m ρ c (Proc.devRef .tc main_v15) (ix2 (0 : Fin 1) q) = (m ((c : Thread nD τ).loc main_arg5)) (ix1 q) := by
  have e : W3 (F := Ideal) m ρ c (Proc.devRef .tc main_v15) = shapeCast S1x256 (W2 (F := Ideal) m ρ c (Proc.devRef .tc main_arg5)) shapeCasts_S256_S1x256 := by
    show StableHlo.after hostOps1 (W2 m ρ c) (Proc.devRef .tc main_v15) = _
    after_results
    rfl
  rw [e, arg5_after_first]
  exact shapeCast_a_1a_apply _ shapeCasts_S256_S1x256 (0 : Fin 1) q

/-! ## After the second region: the hidden values and their column sums -/

theorem region_hidden : Cert.KernelIdeal.NodeRegion.hiddenOf (V3 m ρ) c = hiddenOf m c := by
  unfold Cert.KernelIdeal.NodeRegion.hiddenOf hiddenOf
  show Cert.GraphLayer.hiddenArr (W3 m ρ c (Proc.devRef .tc main_v14)) (W3 m ρ c (Proc.devRef .tc main_arg0)) (W3 m ρ c (Proc.devRef .tc main_arg4))
      (fun j => W3 m ρ c (Proc.devRef .tc main_v15) (ix2 (0 : Fin 1) (j 0))) (W3 m ρ c (Proc.devRef .tc main_arg6)) = _
  rw [agg_at_second, arg0_at_second, arg4_at_second, arg6_at_second]
  refine congrArg (fun b => Cert.GraphLayer.hiddenArr (aggOf m c) (m ((c : Thread nD τ).loc main_arg0)) (m ((c : Thread nD τ).loc main_arg4)) b (m ((c : Thread nD τ).loc main_arg6))) (funext fun j => ?_)
  obtain ⟨q, rfl⟩ : ∃ q : Fin 256, j = ix1 q := ⟨j 0, eq_ix1 j⟩
  exact bias_row_at m ρ c q

theorem hidden_after_second : W4 (F := Ideal) m ρ c (Proc.devRef .tc main_v16_0) = hiddenOf m c :=
  (W4_arr m ρ c 5).trans ((Cert.KernelIdeal.NodeRegion.hidden_value (V3 m ρ) c).trans (region_hidden m ρ c))

theorem sum_after_second (q : Fin 256) :
    W4 (F := Ideal) m ρ c (Proc.devRef .tc main_v16_1) (ix2 (0 : Fin 1) q) = Cert.GraphLayer.colSum (hiddenOf m c) q := by
  rw [show W4 (F := Ideal) m ρ c (Proc.devRef .tc main_v16_1) = Cert.KernelIdeal.NodeRegion.sumRow (V3 m ρ) c from
    (W4_arr m ρ c 6).trans (Cert.KernelIdeal.NodeRegion.sum_value (V3 m ρ) c)]
  rw [Cert.KernelIdeal.NodeRegion.sumRow_at, region_hidden]

theorem sumsq_after_second (q : Fin 256) :
    W4 (F := Ideal) m ρ c (Proc.devRef .tc main_v16_2) (ix2 (0 : Fin 1) q) = Cert.GraphLayer.colSumSq (hiddenOf m c) q := by
  rw [show W4 (F := Ideal) m ρ c (Proc.devRef .tc main_v16_2) = Cert.KernelIdeal.NodeRegion.sumSqRow (V3 m ρ) c from
    (W4_arr m ρ c 7).trans (Cert.KernelIdeal.NodeRegion.sumsq_value (V3 m ρ) c)]
  rw [Cert.KernelIdeal.NodeRegion.sumSqRow_at, region_hidden]

/-! ## Before the third region: the mean, the variance from the second moment, the scale and shift rows -/

theorem hidden_at_third : W5 (F := Ideal) m ρ c (Proc.devRef .tc main_v16_0) = hiddenOf m c := by
  show StableHlo.after hostOps2 (W4 m ρ c) (Proc.devRef .tc main_v16_0) = _
  after_results
  exact hidden_after_second m ρ c

theorem mean_at_third (q : Fin 256) :
    W5 (F := Ideal) m ρ c (Proc.devRef .tc main_v18) (ix2 (0 : Fin 1) q) = Cert.GraphLayer.mean (hiddenOf m c) q := by
  have e : W5 (F := Ideal) m ρ c (Proc.devRef .tc main_v18)
      = Host.divf (F := Ideal) (W4 (F := Ideal) m ρ c (Proc.devRef .tc main_v16_1)) (broadcastInDim S1x256 ![] bcast_S_S1x256 (constant (F := Ideal) S_ .f32 0x469C4000#32)) := by
    show StableHlo.after hostOps2 (W4 m ρ c) (Proc.devRef .tc main_v18) = _
    after_results
  rw [e]
  show Ideal.div (W4 (F := Ideal) m ρ c (Proc.devRef .tc main_v16_1) (ix2 (0 : Fin 1) q)) (Ideal.ofBits .f32 0x469C4000#32) = _
  rw [sum_after_second]
  rfl

theorem var_at_third (q : Fin 256) :
    W5 (F := Ideal) m ρ c (Proc.devRef .tc main_v22) (ix2 (0 : Fin 1) q) = Cert.GraphLayer.varMoments (hiddenOf m c) q := by
  have e : W5 (F := Ideal) m ρ c (Proc.devRef .tc main_v22)
      = subf (F := Ideal)
          (Host.divf (F := Ideal) (W4 (F := Ideal) m ρ c (Proc.devRef .tc main_v16_2)) (broadcastInDim S1x256 ![] bcast_S_S1x256 (constant (F := Ideal) S_ .f32 0x469C4000#32)))
          (mulf (F := Ideal)
            (Host.divf (F := Ideal) (W4 (F := Ideal) m ρ c (Proc.devRef .tc main_v16_1)) (broadcastInDim S1x256 ![] bcast_S_S1x256 (constant (F := Ideal) S_ .f32 0x469C4000#32)))
            (Host.divf (F := Ideal) (W4 (F := Ideal) m ρ c (Proc.devRef .tc main_v16_1)) (broadcastInDim S1x256 ![] bcast_S_S1x256 (constant (F := Ideal) S_ .f32 0x469C4000#32)))) := by
    show StableHlo.after hostOps2 (W4 m ρ c) (Proc.devRef .tc main_v22) = _
    after_results
  rw [e]
  show Ideal.div (W4 (F := Ideal) m ρ c (Proc.devRef .tc main_v16_2) (ix2 (0 : Fin 1) q)) (Ideal.ofBits .f32 0x469C4000#32)
      - Ideal.div (W4 (F := Ideal) m ρ c (Proc.devRef .tc main_v16_1) (ix2 (0 : Fin 1) q)) (Ideal.ofBits .f32 0x469C4000#32)
        * Ideal.div (W4 (F := Ideal) m ρ c (Proc.devRef .tc main_v16_1) (ix2 (0 : Fin 1) q)) (Ideal.ofBits .f32 0x469C4000#32) = _
  rw [sumsq_after_second, sum_after_second]
  rfl

theorem scale_row_at (q : Fin 256) : W5 (F := Ideal) m ρ c (Proc.devRef .tc main_v23) (ix2 (0 : Fin 1) q) = (m ((c : Thread nD τ).loc main_arg7)) (ix1 q) := by
  have e : W5 (F := Ideal) m ρ c (Proc.devRef .tc main_v23) = shapeCast S1x256 (W4 (F := Ideal) m ρ c (Proc.devRef .tc main_arg7)) shapeCasts_S256_S1x256 := by
    show StableHlo.after hostOps2 (W4 m ρ c) (Proc.devRef .tc main_v23) = _
    after_results
    rfl
  rw [e, arg7_after_second]
  exact shapeCast_a_1a_apply _ shapeCasts_S256_S1x256 (0 : Fin 1) q

theorem shift_row_at (q : Fin 256) : W5 (F := Ideal) m ρ c (Proc.devRef .tc main_v24) (ix2 (0 : Fin 1) q) = (m ((c : Thread nD τ).loc main_arg8)) (ix1 q) := by
  have e : W5 (F := Ideal) m ρ c (Proc.devRef .tc main_v24) = shapeCast S1x256 (W4 (F := Ideal) m ρ c (Proc.devRef .tc main_arg8)) shapeCasts_S256_S1x256 := by
    show StableHlo.after hostOps2 (W4 m ρ c) (Proc.devRef .tc main_v24) = _
    after_results
    rfl
  rw [e, arg8_after_second]
  exact shapeCast_a_1a_apply _ shapeCasts_S256_S1x256 (0 : Fin 1) q

/-! ## After the third region: the result -/

/-- The result buffer ends at the layer's result with the variance taken from the second moment. -/
theorem result_value : W6 (F := Ideal) m ρ c (Proc.devRef .tc main_v25)
    = Cert.GraphLayer.layerMoments (aggOf m c) (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_arr m ρ c 7).trans ((Cert.KernelIdeal.FinalRegion.value (V5 m ρ) c).trans ?_)
  show Cert.GraphLayer.resultArr (W5 m ρ c (Proc.devRef .tc main_v16_0)) (fun q => W5 m ρ c (Proc.devRef .tc main_v18) (ix2 (0 : Fin 1) q))
      (fun q => W5 m ρ c (Proc.devRef .tc main_v22) (ix2 (0 : Fin 1) q)) (fun j => W5 m ρ c (Proc.devRef .tc main_v23) (ix2 (0 : Fin 1) (j 0)))
      (fun j => W5 m ρ c (Proc.devRef .tc main_v24) (ix2 (0 : Fin 1) (j 0))) (W5 m ρ c (Proc.devRef .tc main_arg0)) (W5 m ρ c (Proc.devRef .tc main_arg9)) = _
  rw [hidden_at_third, arg0_at_third, arg9_at_third]
  have eμ : (fun q : Fin 256 => W5 (F := Ideal) m ρ c (Proc.devRef .tc main_v18) (ix2 (0 : Fin 1) q)) = Cert.GraphLayer.mean (hiddenOf m c) :=
    funext (mean_at_third m ρ c)
  have ev : (fun q : Fin 256 => W5 (F := Ideal) m ρ c (Proc.devRef .tc main_v22) (ix2 (0 : Fin 1) q)) = Cert.GraphLayer.varMoments (hiddenOf m c) :=
    funext (var_at_third m ρ c)
  have eγ : (fun j : Cert.GraphLayer.SChan.Idx => W5 (F := Ideal) m ρ c (Proc.devRef .tc main_v23) (ix2 (0 : Fin 1) (j 0))) = (m ((c : Thread nD τ).loc main_arg7)) :=
    funext fun j => by
      obtain ⟨q, rfl⟩ : ∃ q : Fin 256, j = ix1 q := ⟨j 0, eq_ix1 j⟩
      exact scale_row_at m ρ c q
  have eβ : (fun j : Cert.GraphLayer.SChan.Idx => W5 (F := Ideal) m ρ c (Proc.devRef .tc main_v24) (ix2 (0 : Fin 1) (j 0))) = (m ((c : Thread nD τ).loc main_arg8)) :=
    funext fun j => by
      obtain ⟨q, rfl⟩ : ∃ q : Fin 256, j = ix1 q := ⟨j 0, eq_ix1 j⟩
      exact shift_row_at m ρ c q
  rw [eμ, ev, eγ, eβ]
  rfl

end Cert.KernelIdeal.Stitch

end
-- ==== Proof.FiniteInputs.lean ====
/-
  From the precondition to "every float input is a real number".

  The precondition is a single bit: the conjunction, over the nine float arguments, of "every entry x of the
  array satisfies |x| < +∞". On the extended reals |x| is max x (−x), and the word 0x7F800000 read as an f32 is
  +∞; so |x| < +∞ fails exactly at x = −∞ and x = +∞ and holds exactly when x is (the image of) a real number.
  The conjunction is written as a chain of `and`s of nine reductions by `and` over all axes of a bit array;
  a chain of `and`s is 1 only if every member is, and a reduction by `and` into a single result is 1 only if
  every entry of the reduced array is. Nothing is said of the integer argument (the edge index), which the
  precondition does not mention.
-/
import proofs.«169426_j11020886081778_1_alg».proof.Defs
import proofs.«169426_j11020886081778_1_alg».proof.Proof.Gen.Pre_finite_inputs
import Idealize.ShloMosaic.Lib.ReduceAll
import Idealize.ShloMosaic.Lib.ValueIdx

noncomputable section

namespace Cert.FiniteInputs

open Idealize.ShloMosaic Idealize.ShloMosaic.ValueIdx Idealize.SL.Sem
open Cert.Pre_finite_inputs

/-- The f32 word with exponent all ones and significand zero, sign clear, denotes +∞. -/
theorem inf_word : Ideal.ofBits .f32 0x7F800000#32 = (⊤ : EReal) := by
  simp [Ideal.ofBits, Ideal.ieee]

/-- An extended real whose absolute value max x (−x) lies strictly below +∞ is a real number:
    at x = −∞ the maximum is −(−∞) = +∞, at x = +∞ it is x itself, and neither is below +∞. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => exact absurd h (by simp [Ideal.cmp])
  | coe r => exact ⟨r, rfl⟩
  | top => exact absurd h (by simp [Ideal.cmp])

/-- The shape of rank zero has exactly one index (the empty tuple). -/
instance subsingleton_scalar_idx : Subsingleton S_.Idx := ⟨fun a b => funext fun d => d.elim0⟩

/-- One array's share of the precondition: if the reduction by `and`, over all axes, of the bit array
    "|a i| < +∞" is 1, then every entry of `a` is a real number. -/
theorem real_of_all {s : Shape} {axes : List (Fin s.rank)} (hb : S_.BroadcastsInDim s (![] : Fin 0 → Fin s.rank))
    (hr : s.ReducesTo axes S_) (hu : 0 < S_.numel) (a : FVec Ideal s .f32) (init : IVec S_ 1) (j : S_.Idx)
    (e : Host.reduce IntOp.andi (cmpf .olt (Host.absf a) (broadcastInDim s ![] hb (constant (F := Ideal) S_ .f32 0x7F800000#32)))
          init hr hu j = 1#1) (i : s.Idx) : ∃ r : ℝ, a i = (r : EReal) :=
  real_of_abs_lt (a i) (Host.reduce_andi_all _ init hr hu j e i)

variable [Cert.Pre_finite_inputs.Facts]
open Cert.Pre_finite_inputs.Facts

/-- The precondition decoded: if it evaluates to 1 on ten arrays, every entry of each of the nine float
    arrays is a real number. The bit is ((((((((p0 ∧ p2) ∧ p3) ∧ p4) ∧ p5) ∧ p6) ∧ p7) ∧ p8) ∧ p9), with pK the
    reduction of array K's comparison bits; each pK is therefore 1, and `real_of_all` reads it entry by entry. -/
theorem real_of_fn
    (a0 : FVec Ideal S20000x256 .f32) (a1 : IVec S2x320000 32) (a2 : FVec Ideal S320000x64 .f32)
    (a3 : FVec Ideal S64x256 .f32) (a4 : FVec Ideal S256x256 .f32) (a5 : FVec Ideal S256 .f32)
    (a6 : FVec Ideal S256x256 .f32) (a7 : FVec Ideal S256 .f32) (a8 : FVec Ideal S256 .f32)
    (a9 : FVec Ideal S256x256 .f32)
    (h : Cert.Pre_finite_inputs.fn (F := Ideal) a0 a1 a2 a3 a4 a5 a6 a7 a8 a9 = fun _ => 1#1) :
    (∀ i, ∃ r : ℝ, a0 i = (r : EReal)) ∧ (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧ (∀ i, ∃ r : ℝ, a6 i = (r : EReal)) ∧
    (∀ i, ∃ r : ℝ, a7 i = (r : EReal)) ∧ (∀ i, ∃ r : ℝ, a8 i = (r : EReal)) ∧ (∀ i, ∃ r : ℝ, a9 i = (r : EReal)) := by
  have e := congrFun h ix0
  dsimp only [Cert.Pre_finite_inputs.fn, Cert.Pre_finite_inputs.fn_part1, Cert.Pre_finite_inputs.fn_part2, andi] at e
  simp only [IntOp.andi_eq_one] at e
  obtain ⟨⟨⟨⟨⟨⟨⟨⟨h0, h2⟩, h3⟩, h4⟩, h5⟩, h6⟩, h7⟩, h8⟩, h9⟩ := e
  exact ⟨real_of_all _ _ _ a0 _ _ h0, real_of_all _ _ _ a2 _ _ h2, real_of_all _ _ _ a3 _ _ h3,
    real_of_all _ _ _ a4 _ _ h4, real_of_all _ _ _ a5 _ _ h5, real_of_all _ _ _ a6 _ _ h6,
    real_of_all _ _ _ a7 _ _ h7, real_of_all _ _ _ a8 _ _ h8, real_of_all _ _ _ a9 _ _ h9⟩

/-- The same for the idealized kernel's argument arrays in a memory of which its precondition holds,
    on each device. -/
theorem real_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal)) ∧
    (∀ i, ∃ r : ℝ, m ((c.tc : Thread Cert.KernelIdeal.nD Cert.KernelIdeal.τ).loc Cert.KernelIdeal.main_arg2) i = (r : EReal)) ∧
    (∀ i, ∃ r : ℝ, m ((c.tc : Thread Cert.KernelIdeal.nD Cert.KernelIdeal.τ).loc Cert.KernelIdeal.main_arg3) i = (r : EReal)) ∧
    (∀ i, ∃ r : ℝ, m ((c.tc : Thread Cert.KernelIdeal.nD Cert.KernelIdeal.τ).loc Cert.KernelIdeal.main_arg4) i = (r : EReal)) ∧
    (∀ i, ∃ r : ℝ, m ((c.tc : Thread Cert.KernelIdeal.nD Cert.KernelIdeal.τ).loc Cert.KernelIdeal.main_arg5) i = (r : EReal)) ∧
    (∀ i, ∃ r : ℝ, m ((c.tc : Thread Cert.KernelIdeal.nD Cert.KernelIdeal.τ).loc Cert.KernelIdeal.main_arg6) i = (r : EReal)) ∧
    (∀ i, ∃ r : ℝ, m ((c.tc : Thread Cert.KernelIdeal.nD Cert.KernelIdeal.τ).loc Cert.KernelIdeal.main_arg7) i = (r : EReal)) ∧
    (∀ i, ∃ r : ℝ, m ((c.tc : Thread Cert.KernelIdeal.nD Cert.KernelIdeal.τ).loc Cert.KernelIdeal.main_arg8) i = (r : EReal)) ∧
    (∀ i, ∃ r : ℝ, m ((c.tc : Thread Cert.KernelIdeal.nD Cert.KernelIdeal.τ).loc Cert.KernelIdeal.main_arg9) i = (r : EReal)) :=
  real_of_fn _ _ _ _ _ _ _ _ _ _ (hpre c)

end Cert.FiniteInputs

end
-- ==== Proof.Variance.lean ====
/-
  The two ways of writing a channel's variance agree when every hidden value is a real number.

  With `N = 20000`, `S = Σ_r h_r`, `Q = Σ_r h_r²` and `μ = S / N`:
  `Σ_r (h_r − μ)² = Q − 2·μ·S + N·μ² = Q − N·μ²`, so `(Σ_r (h_r − μ)²) / N = Q / N − μ²`.
  The step uses distributivity, which on the extended reals fails at the infinities; it is carried out in `ℝ`
  after writing every entry as the coercion of a real, and division by the count is multiplication by the real
  `1 / 20000`.
-/
import proofs.«169426_j11020886081778_1_alg».proof.Proof.Spec

noncomputable section

open scoped BigOperators

namespace Cert.GraphLayer

open Idealize.ShloMosaic Idealize.ShloMosaic.ValueIdx

/-- the node count, the f32 word `0x469C4000`, denotes the real `20000` -/
theorem count_eq : count = ((20000 : ℝ) : EReal) := by
  unfold count
  simp [Ideal.ofBits, Ideal.ieee, -EReal.coe_mul]; norm_num

/-- the coercion of a finite sum of reals is the sum of the coercions -/
theorem coe_finset_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- the law over the reals: the mean of the squared deviations is the second moment minus the squared mean -/
theorem variance_real (g : Fin 20000 → ℝ) (S Q μ : ℝ) (hS : S = ∑ r : Fin 20000, g r)
    (hQ : Q = ∑ r : Fin 20000, g r * g r) (hμ : μ = S * (1 / 20000)) :
    (∑ r : Fin 20000, (g r - μ) * (g r - μ)) * (1 / 20000) = Q * (1 / 20000) - μ * μ := by
  have hsq : ∀ r, (g r - μ) * (g r - μ) = g r * g r - 2 * μ * g r + μ * μ := fun r => by ring
  have hsum : (∑ r : Fin 20000, (g r - μ) * (g r - μ)) = Q - 2 * μ * S + 20000 * (μ * μ) := by
    simp only [hsq, Finset.sum_add_distrib, Finset.sum_sub_distrib, ← Finset.mul_sum, Finset.sum_const,
      Finset.card_univ, Fintype.card_fin, nsmul_eq_mul, ← hS, ← hQ]
    push_cast; ring
  rw [hsum, hμ]; ring

/-- a channel's mean, every entry real, is the coercion of the real mean -/
theorem mean_coe (h : SNode.Idx → EReal) (g : SNode.Idx → ℝ) (hg : ∀ i, h i = (g i : EReal)) (c : Fin 256) :
    mean h c = (((∑ r : Fin 20000, g (ix2 r c)) * (1 / 20000) : ℝ) : EReal) := by
  unfold mean colSum
  rw [count_eq, Ideal.div_coe (by norm_num : (20000 : ℝ) ≠ 0)]
  simp only [hg]
  rw [← coe_finset_sum, ← EReal.coe_mul]

/-- the mean of the squared deviations is the second moment minus the squared mean, when every entry is real -/
theorem varCentered_eq_varMoments (h : SNode.Idx → EReal) (hreal : ∀ i, ∃ r : ℝ, h i = (r : EReal)) (c : Fin 256) :
    varCentered h c = varMoments h c := by
  choose g hg using hreal
  unfold varCentered varMoments colSumSq
  rw [mean_coe h g hg c, count_eq, Ideal.div_coe (by norm_num : (20000 : ℝ) ≠ 0),
    Ideal.div_coe (by norm_num : (20000 : ℝ) ≠ 0)]
  simp only [hg]
  simp only [← EReal.coe_sub, ← EReal.coe_mul, ← coe_finset_sum]
  exact congrArg _ (variance_real (fun r => g (ix2 r c)) _ _ _ rfl rfl rfl)

end Cert.GraphLayer

end
-- ==== Proof.LibRealValued.lean ====
/-
  Real-valued extended reals.

  An extended real is REAL when it is neither infinity. Finite float inputs are real entries; sums, differences,
  products, finite sums, maxima and exponentials of real entries are real, so every intermediate of a program built
  from those operations on finite inputs — a matrix product plus a bias, a score, a softmax weight — is real, and a
  whole array of real entries is the coercion of one real-valued function (`exists_real_fun`). This is what lets an
  identity proved over the reals (distributivity, cancelling a positive factor, exp of a sum) be used on the extended
  reals, where it fails at the infinities.
-/
import Idealize.ShloMosaic.PureOps.Ideal

noncomputable section

namespace Cert.Lib.RealValued

open Idealize.ShloMosaic

/-- `x` is the coercion of a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- Neither infinity: real. -/
theorem isReal_of_ne {x : EReal} (ht : x ≠ ⊤) (hb : x ≠ ⊥) : IsReal x :=
  ⟨x.toReal, (EReal.coe_toReal ht hb).symm⟩

/-- The element fact a "finite input" precondition states, `|x| < +∞` with `|x| = max x (-x)`: the entry is real. -/
theorem isReal_of_abs_lt_top {x : EReal} (h : max x (-x) < ⊤) : IsReal x := by
  refine isReal_of_ne (fun e => ?_) (fun e => ?_)
  · rw [e] at h; exact absurd h (by simp)
  · rw [e] at h; exact absurd h (by simp)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

theorem IsReal.exp {x : EReal} (hx : IsReal x) : IsReal (Ideal.exp x) := by
  obtain ⟨a, rfl⟩ := hx; exact ⟨Real.exp a, rfl⟩

/-- A finite sum of real entries is real. -/
theorem IsReal.sum {ι : Type*} (S : Finset ι) {f : ι → EReal} (h : ∀ i ∈ S, IsReal (f i)) :
    IsReal (∑ i ∈ S, f i) := by
  classical
  induction S using Finset.induction_on with
  | empty => simpa using isReal_zero
  | insert a S ha ih =>
    rw [Finset.sum_insert ha]
    exact (h a (Finset.mem_insert_self a S)).add (ih fun i hi => h i (Finset.mem_insert_of_mem hi))

/-- A contraction of two arrays of real entries — one entry of a matrix product into a real accumulator — is real. -/
theorem isReal_dot {κ : Type*} [Fintype κ] {x y : κ → EReal} {acc : EReal} (hacc : IsReal acc)
    (hx : ∀ k, IsReal (x k)) (hy : ∀ k, IsReal (y k)) : IsReal (acc + ∑ k, x k * y k) :=
  hacc.add (IsReal.sum _ fun k _ => (hx k).mul (hy k))

/-- An array of real entries is the coercion of one real-valued function. -/
theorem exists_real_fun {α : Type*} {f : α → EReal} (h : ∀ a, IsReal (f a)) :
    ∃ g : α → ℝ, ∀ a, f a = ((g a : ℝ) : EReal) :=
  ⟨fun a => (h a).choose, fun a => (h a).choose_spec⟩

end Cert.Lib.RealValued

end
-- ==== Proof.RealValued.lean ====
/-
  Real-valuedness is preserved by every stage of the graph layer.

  An array is real-valued when every entry is the coercion of a real number. Each stage builds its entries from
  its operands' entries by finite sums, products, a maximum with zero, or by reading an operand at another index:
  a message is a gathered feature times a 64-term sum of products; a hidden value is the maximum of zero and two
  256-term sums of products plus a bias; a gather reads its operand at a computed index; an accumulating scatter
  adds to each operand entry a finite sum of update entries; the zero array holds the real `0`. So from real-valued
  inputs every intermediate array is real-valued, which is what an identity proved over the reals needs.
-/
import proofs.«169426_j11020886081778_1_alg».proof.Proof.Spec
import proofs.«169426_j11020886081778_1_alg».proof.Proof.LibRealValued
import Idealize.ShloMosaic.PureOps.Contract
import Idealize.ShloMosaic.PureOps.ShapeOps

noncomputable section

open scoped BigOperators

namespace Cert.GraphLayer

open Idealize.ShloMosaic Idealize.ShloMosaic.ValueIdx Cert.Lib.RealValued

/-- "every entry is the coercion of a real" and "every entry is real" say the same thing -/
theorem real_iff_isReal {α : Type*} (a : α → EReal) : (∀ i, ∃ r : ℝ, a i = (r : EReal)) ↔ ∀ i, IsReal (a i) := Iff.rfl

/-- the projected edge attribute, a 64-term sum of products of real entries, is real -/
theorem proj_real (ea : SAttr.Idx → EReal) (we : SProj.Idx → EReal) (hea : ∀ i, ∃ r : ℝ, ea i = (r : EReal))
    (hwe : ∀ i, ∃ r : ℝ, we i = (r : EReal)) (e : Fin 320000) (c : Fin 256) : ∃ r : ℝ, proj ea we e c = (r : EReal) :=
  IsReal.sum _ fun k _ => IsReal.mul (hea (ix2 e k)) (hwe (ix2 k c))

/-- a message, a real entry times a real projection, is real -/
theorem message_real (xg : SEdge.Idx → EReal) (ea : SAttr.Idx → EReal) (we : SProj.Idx → EReal)
    (hxg : ∀ i, ∃ r : ℝ, xg i = (r : EReal)) (hea : ∀ i, ∃ r : ℝ, ea i = (r : EReal))
    (hwe : ∀ i, ∃ r : ℝ, we i = (r : EReal)) (e : Fin 320000) (c : Fin 256) :
    ∃ r : ℝ, message xg ea we e c = (r : EReal) :=
  IsReal.mul (hxg (ix2 e c)) (proj_real ea we hea hwe e c)

/-- the array of messages is real-valued when the gathered features, the edge attributes and the weights are -/
theorem messageArr_real (xg : SEdge.Idx → EReal) (ea : SAttr.Idx → EReal) (we : SProj.Idx → EReal)
    (hxg : ∀ i, ∃ r : ℝ, xg i = (r : EReal)) (hea : ∀ i, ∃ r : ℝ, ea i = (r : EReal))
    (hwe : ∀ i, ∃ r : ℝ, we i = (r : EReal)) : ∀ i, ∃ r : ℝ, messageArr xg ea we i = (r : EReal) :=
  fun i => message_real xg ea we hxg hea hwe (i 0) (i 1)

/-- a row of a real-valued node array against a column of a real-valued square matrix is real -/
theorem lin_real (a : SNode.Idx → EReal) (w : SSq.Idx → EReal) (ha : ∀ i, ∃ r : ℝ, a i = (r : EReal))
    (hw : ∀ i, ∃ r : ℝ, w i = (r : EReal)) (r : Fin 20000) (c : Fin 256) : ∃ q : ℝ, lin a w r c = (q : EReal) :=
  IsReal.sum _ fun k _ => IsReal.mul (ha (ix2 r k)) (hw (ix2 k c))

/-- a hidden value, the maximum of zero and a sum of three real terms, is real -/
theorem hidden_real (agg x : SNode.Idx → EReal) (wrel : SSq.Idx → EReal) (b : SChan.Idx → EReal) (wroot : SSq.Idx → EReal)
    (hagg : ∀ i, ∃ r : ℝ, agg i = (r : EReal)) (hx : ∀ i, ∃ r : ℝ, x i = (r : EReal))
    (hwrel : ∀ i, ∃ r : ℝ, wrel i = (r : EReal)) (hb : ∀ i, ∃ r : ℝ, b i = (r : EReal))
    (hwroot : ∀ i, ∃ r : ℝ, wroot i = (r : EReal)) (r : Fin 20000) (c : Fin 256) :
    ∃ q : ℝ, hidden agg x wrel b wroot r c = (q : EReal) :=
  IsReal.max (IsReal.add (IsReal.add (lin_real agg wrel hagg hwrel r c) (hb (ix1 c))) (lin_real x wroot hx hwroot r c))
    isReal_zero

/-- the array of hidden values is real-valued when the message sums, the features, the weights and the bias are -/
theorem hiddenArr_real (agg x : SNode.Idx → EReal) (wrel : SSq.Idx → EReal) (b : SChan.Idx → EReal) (wroot : SSq.Idx → EReal)
    (hagg : ∀ i, ∃ r : ℝ, agg i = (r : EReal)) (hx : ∀ i, ∃ r : ℝ, x i = (r : EReal))
    (hwrel : ∀ i, ∃ r : ℝ, wrel i = (r : EReal)) (hb : ∀ i, ∃ r : ℝ, b i = (r : EReal))
    (hwroot : ∀ i, ∃ r : ℝ, wroot i = (r : EReal)) : ∀ i, ∃ q : ℝ, hiddenArr agg x wrel b wroot i = (q : EReal) :=
  fun i => hidden_real agg x wrel b wroot hagg hx hwrel hb hwroot (i 0) (i 1)

/-- a gather reads its operand at a computed index, so it keeps real-valuedness, whatever the dimension numbers -/
theorem gather_real {s si t : Shape} {w : Nat} (d : GatherDims s si t) (x : s.Idx → EReal) (idx : IVec si w)
    (hx : ∀ i, ∃ r : ℝ, x i = (r : EReal)) : ∀ j, ∃ r : ℝ, Host.gather d x idx j = (r : EReal) :=
  fun j => hx (d.operandIdx j idx)

/-- an accumulating scatter adds to each operand entry a finite sum of update entries, so it keeps real-valuedness,
    whatever the dimension numbers -/
theorem scatterAdd_real {s si u : Shape} {w : Nat} {φ : FTy} (d : ScatterDims s si u) (x : FVec Ideal s φ) (idx : IVec si w)
    (upd : FVec Ideal u φ) (hx : ∀ i, ∃ r : ℝ, x i = (r : EReal)) (hu : ∀ j, ∃ r : ℝ, upd j = (r : EReal)) :
    ∀ i, ∃ r : ℝ, Host.scatterAdd (F := Ideal) d x idx upd i = (r : EReal) := by
  intro i
  unfold Host.scatterAdd
  rw [Ideal.hostScatterAdd_def]
  unfold Ideal.hostScatterAdd
  exact IsReal.add (hx i) (IsReal.sum _ fun j _ => hu j)

/-- the zero array holds the real `0` everywhere -/
theorem zeros_real {α : Type*} : ∀ i : α, ∃ r : ℝ, (fun _ : α => Ideal.ofBits .f32 0x00000000#32) i = (r : EReal) :=
  fun _ => ⟨0, by rw [Ideal.ofBits_zero_f32, EReal.coe_zero]⟩

/-- the zero constant broadcast to any shape, from any shape and along any dimensions, is real-valued -/
theorem zeros_broadcast_real {s S : Shape} (dims : Fin s.rank → Fin S.rank) (hb : s.BroadcastsInDim S dims) :
    ∀ i, ∃ r : ℝ, broadcastInDim S dims hb (constant (F := Ideal) s .f32 0x00000000#32) i = (r : EReal) :=
  fun _ => ⟨0, by
    show Ideal.ofBits .f32 0x00000000#32 = ((0 : ℝ) : EReal)
    rw [Ideal.ofBits_zero_f32, EReal.coe_zero]⟩

/-- the printed form: the rank-0 zero constant broadcast to a shape `S` -/
theorem zeros_scalar_broadcast_real (S : Shape) (hb : (⟨0, ![]⟩ : Shape).BroadcastsInDim S ![]) :
    ∀ i, ∃ r : ℝ, broadcastInDim S ![] hb (constant (F := Ideal) ⟨0, ![]⟩ .f32 0x00000000#32) i = (r : EReal) :=
  zeros_broadcast_real (s := ⟨0, ![]⟩) ![] hb

end Cert.GraphLayer

end
-- ==== Proof.Bridge.lean ====
/-
  The two ways of writing the layer agree on finite inputs.

  The two programs differ in one place: the variance of a channel over the 20000 nodes is the mean of the squared
  deviations in one and the second moment minus the squared mean in the other. These are the same real number
  whenever every hidden value is a real number, which holds when every float input is: the gathered source features
  are entries of the node features, the messages are products of reals, the per-node message sums are the zero plus
  finite sums of messages, and a hidden value is a maximum of finite sums of products of reals.
-/
import proofs.«169426_j11020886081778_1_alg».proof.Proof.Spec
import proofs.«169426_j11020886081778_1_alg».proof.Proof.Variance
import proofs.«169426_j11020886081778_1_alg».proof.Proof.RealValued
import proofs.«169426_j11020886081778_1_alg».proof.Proof.RefValue

noncomputable section

namespace Cert.GraphLayer

open Idealize.ShloMosaic Idealize.ShloMosaic.ValueIdx Cert.ReferenceIdeal Cert.ReferenceIdeal.Read

/-- With real-valued message sums and real-valued inputs, the layer with the variance as the mean of squared
    deviations is the layer with the variance from the second moment. -/
theorem layerCentered_eq_layerMoments (agg x : SNode.Idx → EReal) (wrel : SSq.Idx → EReal) (b : SChan.Idx → EReal)
    (wroot : SSq.Idx → EReal) (γ β : SChan.Idx → EReal) (wres : SSq.Idx → EReal)
    (hagg : ∀ i, ∃ r : ℝ, agg i = (r : EReal)) (hx : ∀ i, ∃ r : ℝ, x i = (r : EReal))
    (hwrel : ∀ i, ∃ r : ℝ, wrel i = (r : EReal)) (hb : ∀ i, ∃ r : ℝ, b i = (r : EReal))
    (hwroot : ∀ i, ∃ r : ℝ, wroot i = (r : EReal)) :
    layerCentered agg x wrel b wroot γ β wres = layerMoments agg x wrel b wroot γ β wres := by
  unfold layerCentered layerMoments
  have hv : varCentered (hiddenArr agg x wrel b wroot) = varMoments (hiddenArr agg x wrel b wroot) :=
    funext fun c => varCentered_eq_varMoments _ (hiddenArr_real agg x wrel b wroot hagg hx hwrel hb hwroot) c
  rw [hv]

/-- The per-node message sums, as the reference's scatter-add computes them, are real numbers when the node
    features, the edge attributes and the edge projection are. -/
theorem messageSums_real (x0 : (⟨S20000x256, .f32⟩ : BufTy).Contents (Elt Ideal)) (x1 : (⟨S2x320000, .i32⟩ : BufTy).Contents (Elt Ideal))
    (x2 : (⟨S320000x64, .f32⟩ : BufTy).Contents (Elt Ideal)) (x3 : (⟨S64x256, .f32⟩ : BufTy).Contents (Elt Ideal))
    (h0 : ∀ i, ∃ r : ℝ, x0 i = (r : EReal)) (h2 : ∀ i, ∃ r : ℝ, x2 i = (r : EReal)) (h3 : ∀ i, ∃ r : ℝ, x3 i = (r : EReal)) :
    ∀ i, ∃ r : ℝ, val_main_v15 (F := Ideal) x0 x1 x2 x3 i = (r : EReal) := by
  unfold val_main_v15
  refine scatterAdd_real _ _ _ _ ?_ ?_
  · unfold val_main_v13 val_main_cst
    exact zeros_scalar_broadcast_real _ _
  · rw [Cert.ReferenceIdeal.RefValue.message_stage]
    refine messageArr_real _ _ _ ?_ h2 h3
    unfold val_main_v11
    exact gather_real _ _ _ h0

end Cert.GraphLayer

end
-- ==== Proof.lean ====
/-
  A graph layer: messages along 320000 edges, summed per destination node, a dense node update with a ReLU, batch
  normalisation over the 20000 nodes, and a residual product — the kernel in three regions against plain jax.

  On the extended reals both programs compute, for node r and channel c,
      (h[r,c] − μ[c]) · rsqrt (var[c] + ε) · γ[c] + β[c] + Σ_k x[r,k]·W_res[k,c],
  where h = max (agg·W_rel + b + x·W_root) 0, agg[n,·] = Σ_{edges e into n} x[src e,·] · (edge_attr·W_edge)[e,·] and
  μ[c] = (Σ_r h[r,c]) / 20000. The gather of the source features, the index arithmetic and the scatter-add are the same
  host operations on the same arguments in both programs. The matrix products agree because a change of float format
  is the identity and a sum may be taken in any grouping: the kernel's products are over blocks of rows, and its two
  column sums run over ten blocks of 2000 nodes. The one real difference is the variance: the reference takes the
  mean of the squared deviations, (Σ_r (h[r,c] − μ[c])²) / 20000, the kernel the second moment minus the squared
  mean, (Σ_r h[r,c]²) / 20000 − μ[c]². These are equal when every h[r,c] is a real number (on the extended reals the
  expansion of the square fails at infinities), and that is where the precondition is used: every float input finite
  makes every message, every message sum and every hidden value a real number.

  The modules: Spec (the layer as functions of arrays), EdgeRegion / NodeRegion / FinalRegion (what each kernel region
  leaves in its output arrays), KernelRun (the run of the three regions among the host operations, result named),
  KernelValue (the boundaries read one off the other, up to the result), RefValue (the reference's stages are the
  Spec's functions), Variance and RealValued and FiniteInputs (the variance law and what it needs), Bridge (the two
  forms of the layer agree).
-/
import proofs.«169426_j11020886081778_1_alg».proof.Defs
import proofs.«169426_j11020886081778_1_alg».proof.Proof.Gen.Kernel
import proofs.«169426_j11020886081778_1_alg».proof.Proof.Gen.Kernel.Skeleton
import proofs.«169426_j11020886081778_1_alg».proof.Proof.Gen.Kernel.Launch
import proofs.«169426_j11020886081778_1_alg».proof.Proof.Gen.Kernel.Points
import proofs.«169426_j11020886081778_1_alg».proof.Proof.Gen.Kernel.Frame
import proofs.«169426_j11020886081778_1_alg».proof.Proof.Gen.KernelIdeal
import proofs.«169426_j11020886081778_1_alg».proof.Proof.Gen.KernelIdeal.Skeleton
import proofs.«169426_j11020886081778_1_alg».proof.Proof.Gen.KernelIdeal.Launch
import proofs.«169426_j11020886081778_1_alg».proof.Proof.Gen.KernelIdeal.Points
import proofs.«169426_j11020886081778_1_alg».proof.Proof.Gen.KernelIdeal.Frame
import proofs.«169426_j11020886081778_1_alg».proof.Proof.Gen.ReferenceIdeal
import proofs.«169426_j11020886081778_1_alg».proof.Proof.Gen.Pre_finite_inputs
import proofs.«169426_j11020886081778_1_alg».proof.Proof.Gen.ReferenceIdeal.Run
import proofs.«169426_j11020886081778_1_alg».proof.Proof.Gen.ReferenceIdeal.Read
import proofs.«169426_j11020886081778_1_alg».proof.Proof.KernelRun
import proofs.«169426_j11020886081778_1_alg».proof.Proof.KernelValue
import proofs.«169426_j11020886081778_1_alg».proof.Proof.RefValue
import proofs.«169426_j11020886081778_1_alg».proof.Proof.FiniteInputs
import proofs.«169426_j11020886081778_1_alg».proof.Proof.Bridge
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at the layer's result of the arguments: the kernel with the variance from the second
    moment, the reference with the mean of squared deviations, equal because finite inputs make every hidden value a
    real number. -/
theorem algebraic : Cert.algebraic_KernelIdeal_ReferenceIdeal := by
  intro m ρ m' ρ' hpre hagree
  refine ⟨fun c => Cert.GraphLayer.layerMoments (Cert.KernelIdeal.Stitch.aggOf m c) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Stitch.result_value m ρ c), (h c).2⟩)
      (Cert.KernelIdeal.Run.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9⟩ := hagree c
    obtain ⟨r0, r2, r3, r4, r5, r6, r7, r8, r9⟩ := Cert.FiniteInputs.real_of_pre m hpre c
    rw [Cert.ReferenceIdeal.Read.val_main_v49_eq, a0, a1, a2, a3, a4, a5, a6, a7, a8, a9,
      Cert.ReferenceIdeal.RefValue.result_stage]
    exact Cert.GraphLayer.layerCentered_eq_layerMoments _ _ _ _ _ _ _ _
      (Cert.GraphLayer.messageSums_real _ _ _ _ r0 r2 r3) r0 r4 r5 r6

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
